-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S16777216 : Shape := ⟨1, ![16777216]⟩
abbrev S1048576 : Shape := ⟨1, ![1048576]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S16777216 : S_.BroadcastsInDim S16777216 (![] : Fin 0 → Fin S16777216.rank)
  reducesTo_S16777216_S_d0 : S16777216.ReducesTo [0] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  main_v18

def fn {F : FTy → Type} [FloatOps F] (main_arg0 : FVec F S16777216x2 .f32) (main_arg1 : FVec F S16777216 .f32) (main_arg2 : FVec F S1048576 .f32) (main_arg3 : FVec F S1048576 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  let main_v14 : FVec F S1048576 .f32 := Host.absf main_arg3
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_v13 main_v16
-- ==== Kernel.lean ====
abbrev S16777216x2 : Shape := ⟨2, ![16777216, 2]⟩
abbrev S16777216 : Shape := ⟨1, ![16777216]⟩
abbrev S1048576 : Shape := ⟨1, ![1048576]⟩
abbrev S16777216x1 : Shape := ⟨2, ![16777216, 1]⟩
abbrev S131072x128 : Shape := ⟨2, ![131072, 128]⟩
abbrev S4096x128 : Shape := ⟨2, ![4096, 128]⟩
abbrev S_ : Shape := ⟨0, ![]⟩
abbrev S131072x128x1 : Shape := ⟨3, ![131072, 128, 1]⟩

abbrev nBuf : Space → Nat
  | .hbm => 32
  | .vmem => 14
  | .smem => 0
  | _ => 0

abbrev bufTy : (tb : Table) → Fin (tcTables nBuf tb) → BufTy
  | .hbm, ⟨0, _⟩ => ⟨S16777216x2, .f32⟩
  | .hbm, ⟨1, _⟩ => ⟨S16777216, .f32⟩
  | .hbm, ⟨2, _⟩ => ⟨S1048576, .f32⟩
  | .hbm, ⟨3, _⟩ => ⟨S1048576, .f32⟩
  | .hbm, ⟨4, _⟩ => ⟨S16777216x1, .f32⟩
  | .hbm, ⟨5, _⟩ => ⟨S16777216, .f32⟩
  | .hbm, ⟨6, _⟩ => ⟨S131072x128, .f32⟩
  | .hbm, ⟨7, _⟩ => ⟨S16777216x1, .f32⟩
  | .hbm, ⟨8, _⟩ => ⟨S16777216, .f32⟩
  | .hbm, ⟨9, _⟩ => ⟨S131072x128, .f32⟩
  | .hbm, ⟨10, _⟩ => ⟨S131072x128, .i32⟩
  | .hbm, ⟨11, _⟩ => ⟨S_, .i32⟩
  | .hbm, ⟨12, _⟩ => ⟨S131072x128, .i32⟩
  | .hbm, ⟨13, _⟩ => ⟨S131072x128, .i1⟩
  | .hbm, ⟨14, _⟩ => ⟨S_, .i32⟩
  | .hbm, ⟨15, _⟩ => ⟨S131072x128, .i32⟩
  | .hbm, ⟨16, _⟩ => ⟨S131072x128, .i32⟩
  | .hbm, ⟨17, _⟩ => ⟨S131072x128, .i32⟩
  | .hbm, ⟨18, _⟩ => ⟨S131072x128x1, .i32⟩
  | .hbm, ⟨19, _⟩ => ⟨S131072x128, .f32⟩
  | .hbm, ⟨20, _⟩ => ⟨S_, .i32⟩
  | .hbm, ⟨21, _⟩ => ⟨S131072x128, .i32⟩
  | .hbm, ⟨22, _⟩ => ⟨S131072x128, .i1⟩
  | .hbm, ⟨23, _⟩ => ⟨S_, .i32⟩
  | .hbm, ⟨24, _⟩ => ⟨S131072x128, .i32⟩
  | .hbm, ⟨25, _⟩ => ⟨S131072x128, .i32⟩
  | .hbm, ⟨26, _⟩ => ⟨S131072x128, .i32⟩
  | .hbm, ⟨27, _⟩ => ⟨S131072x128x1, .i32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S16777216, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .i32⟩
  | .local _ .vmem, ⟨5, _⟩ => ⟨S4096x128, .i32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S16777216x2_S16777216x1_0_0 : S16777216x2.Slices ![0, 0] S16777216x1
  shapeCasts_S16777216x1_S16777216 : S16777216x1.ShapeCasts S16777216
  shapeCasts_S16777216_S131072x128 : S16777216.ShapeCasts S131072x128
  slices_S16777216x2_S16777216x1_0_1 : S16777216x2.Slices ![0, 1] S16777216x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bcast_S_S131072x128 : S_.BroadcastsInDim S131072x128 (![] : Fin 0 → Fin S131072x128.rank)
  bcast_S131072x128_S131072x128x1_0_1 : S131072x128.BroadcastsInDim S131072x128x1 (![0, 1] : Fin 2 → Fin S131072x128x1.rank)
  shapeCasts_S131072x128_S16777216 : S131072x128.ShapeCasts S16777216
  gather_S1048576_S131072x128x1_S131072x128_n_0_n_n_0_2_1_wf : GatherDims.WF S1048576 S131072x128x1 S131072x128 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .i32 = 32 ∨ (Rect.block (s := S131072x128) S4096x128.size (cc0_transform_2 i) (hinb0_2 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S131072x128.size a
  hwx1_0 : ∀ i : grid1.Coords, EltTy.bits .f32 = 32 ∨ (Rect.block (s := S131072x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S131072x128.size a
  hwx1_1 : ∀ i : grid1.Coords, EltTy.bits .f32 = 32 ∨ (Rect.block (s := S131072x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S131072x128.size a
  hwx1_2 : ∀ i : grid1.Coords, EltTy.bits .f32 = 32 ∨ (Rect.block (s := S131072x128) S4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S131072x128.size a
  hwx1_3 : ∀ i : grid1.Coords, EltTy.bits .f32 = 32 ∨ (Rect.block (s := S131072x128) S4096x128.size (cc1_transform_3 i) (hinb1_3 i)).WholeWords (EltTy.packing .f32)

variable [Facts₀]

def gather_S1048576_S131072x128x1_S131072x128_n_0_n_n_0_2_1 : GatherDims S1048576 S131072x128x1 S131072x128 where
  offsetDims := []
  collapsedSliceDims := [0]
  operandBatchingDims := []
  startIndicesBatchingDims := []
  startIndexMap := [0]
  indexVectorDim := 2
  sliceSizes := ![1]
  wf := gather_S1048576_S131072x128x1_S131072x128_n_0_n_n_0_2_1_wf

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16777216x2 : Shape := ⟨2, ![16777216, 2]⟩
abbrev S16777216 : Shape := ⟨1, ![16777216]⟩
abbrev S1048576 : Shape := ⟨1, ![1048576]⟩
abbrev S16777216x1 : Shape := ⟨2, ![16777216, 1]⟩
abbrev S_ : Shape := ⟨0, ![]⟩
abbrev S1 : Shape := ⟨1, ![1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216, .f32⟩
  | .hbm, ⟨2, _⟩ => ⟨S1048576, .f32⟩
  | .hbm, ⟨3, _⟩ => ⟨S1048576, .f32⟩
  | .hbm, ⟨4, _⟩ => ⟨S16777216x1, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S_, .i32⟩
  | .hbm, ⟨17, _⟩ => ⟨S_, .i32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S_, .f32⟩
  | .hbm, ⟨22, _⟩ => ⟨S16777216, .f32⟩
  | .hbm, ⟨23, _⟩ => ⟨S16777216, .f32⟩
  | .hbm, ⟨24, _⟩ => ⟨S16777216, .i32⟩
  | .hbm, ⟨25, _⟩ => ⟨S16777216x1, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S_, .f32⟩
  | .hbm, ⟨31, _⟩ => ⟨S16777216, .f32⟩
  | .hbm, ⟨32, _⟩ => ⟨S16777216, .f32⟩
  | .hbm, ⟨33, _⟩ => ⟨S_, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S16777216, .f32⟩
  | .hbm, ⟨41, _⟩ => ⟨S16777216, .f32⟩
  | .hbm, ⟨42, _⟩ => ⟨S_, .f32⟩
  | .hbm, ⟨43, _⟩ => ⟨S16777216, .f32⟩
  | .hbm, ⟨44, _⟩ => ⟨S16777216, .f32⟩
  | .hbm, ⟨45, _⟩ => ⟨S16777216, .i32⟩
  | .hbm, ⟨46, _⟩ => ⟨S_, .i32⟩
  | .hbm, ⟨47, _⟩ => ⟨S16777216, .i32⟩
  | .hbm, ⟨48, _⟩ => ⟨S16777216, .i32⟩
  | .hbm, ⟨49, _⟩ => ⟨S16777216, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S16777216, .i32⟩
  | .hbm, ⟨57, _⟩ => ⟨S16777216, .i32⟩
  | .hbm, ⟨58, _⟩ => ⟨S_, .i32⟩
  | .hbm, ⟨59, _⟩ => ⟨S16777216, .i32⟩
  | .hbm, ⟨60, _⟩ => ⟨S16777216, .i1⟩
  | .hbm, ⟨61, _⟩ => ⟨S_, .i32⟩
  | .hbm, ⟨62, _⟩ => ⟨S16777216, .i32⟩
  | .hbm, ⟨63, _⟩ => ⟨S16777216, .i1⟩
  | .hbm, ⟨64, _⟩ => ⟨S_, .i32⟩
  | .hbm, ⟨65, _⟩ => ⟨S_, .i1⟩
  | .hbm, ⟨66, _⟩ => ⟨S16777216, .i1⟩
  | .hbm, ⟨67, _⟩ => ⟨S16777216, .i1⟩
  | .hbm, ⟨68, _⟩ => ⟨S16777216, .i1⟩
  | .hbm, ⟨69, _⟩ => ⟨S16777216, .i32⟩
  | .hbm, ⟨70, _⟩ => ⟨S16777216, .i32⟩
  | .hbm, ⟨71, _⟩ => ⟨S16777216, .i32⟩
  | .hbm, ⟨72, _⟩ => ⟨S_, .i32⟩
  | .hbm, ⟨73, _⟩ => ⟨S16777216, .i32⟩
  | .hbm, ⟨74, _⟩ => ⟨S16777216, .i1⟩
  | .hbm, ⟨75, _⟩ => ⟨S_, .i32⟩
  | .hbm, ⟨76, _⟩ => ⟨S16777216, .i32⟩
  | .hbm, ⟨77, _⟩ => ⟨S16777216, .i32⟩
  | .hbm, ⟨78, _⟩ => ⟨S16777216, .i32⟩
  | .hbm, ⟨79, _⟩ => ⟨S16777216x1, .i32⟩
  | .hbm, ⟨80, _⟩ => ⟨S1, .i32⟩
  | .hbm, ⟨81, _⟩ => ⟨S_, .i32⟩
  | .hbm, ⟨82, _⟩ => ⟨S16777216x1, .i32⟩
  | .hbm, ⟨83, _⟩ => ⟨S16777216x1, .i1⟩
  | .hbm, ⟨84, _⟩ => ⟨S1x1, .i32⟩
  | .hbm, ⟨85, _⟩ => ⟨S16777216x1, .i32⟩
  | .hbm, ⟨86, _⟩ => ⟨S16777216x1, .i1⟩
  | .hbm, ⟨87, _⟩ => ⟨S16777216x1, .i1⟩
  | .hbm, ⟨88, _⟩ => ⟨S_, .i1⟩
  | .hbm, ⟨89, _⟩ => ⟨S16777216, .i1⟩
  | .hbm, ⟨90, _⟩ => ⟨S16777216, .f32⟩
  | .hbm, ⟨91, _⟩ => ⟨S_, .f32⟩
  | .hbm, ⟨92, _⟩ => ⟨S16777216, .f32⟩
  | .hbm, ⟨93, _⟩ => ⟨S16777216, .f32⟩
  | .hbm, ⟨94, _⟩ => ⟨S_, .i32⟩
  | .hbm, ⟨95, _⟩ => ⟨S16777216, .i32⟩
  | .hbm, ⟨96, _⟩ => ⟨S16777216, .i1⟩
  | .hbm, ⟨97, _⟩ => ⟨S_, .i32⟩
  | .hbm, ⟨98, _⟩ => ⟨S16777216, .i32⟩
  | .hbm, ⟨99, _⟩ => ⟨S16777216, .i32⟩
  | .hbm, ⟨100, _⟩ => ⟨S16777216, .i32⟩
  | .hbm, ⟨101, _⟩ => ⟨S16777216x1, .i32⟩
  | .hbm, ⟨102, _⟩ => ⟨S1, .i32⟩
  | .hbm, ⟨103, _⟩ => ⟨S_, .i32⟩
  | .hbm, ⟨104, _⟩ => ⟨S16777216x1, .i32⟩
  | .hbm, ⟨105, _⟩ => ⟨S16777216x1, .i1⟩
  | .hbm, ⟨106, _⟩ => ⟨S1x1, .i32⟩
  | .hbm, ⟨107, _⟩ => ⟨S16777216x1, .i32⟩
  | .hbm, ⟨108, _⟩ => ⟨S16777216x1, .i1⟩
  | .hbm, ⟨109, _⟩ => ⟨S16777216x1, .i1⟩
  | .hbm, ⟨110, _⟩ => ⟨S_, .i1⟩
  | .hbm, ⟨111, _⟩ => ⟨S16777216, .i1⟩
  | .hbm, ⟨112, _⟩ => ⟨S16777216, .f32⟩
  | .hbm, ⟨113, _⟩ => ⟨S_, .f32⟩
  | .hbm, ⟨114, _⟩ => ⟨S16777216, .f32⟩
  | .hbm, ⟨115, _⟩ => ⟨S16777216, .f32⟩
  | .hbm, ⟨116, _⟩ => ⟨S16777216, .f32⟩
  | .hbm, ⟨117, _⟩ => ⟨S16777216, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_c_7 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v20 : Ref sig .tc := ⟨.hbm, 44, rfl⟩
abbrev main_v21 : Ref sig .tc := ⟨.hbm, 45, rfl⟩
abbrev main_c_8 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_9 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v25 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v26 : Ref sig .tc := ⟨.hbm, 93, rfl⟩
abbrev main_call4_c : Ref sig .tc := ⟨.hbm, 94, rfl⟩
abbrev main_call4_v0 : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_c_1 : Ref sig .tc := ⟨.hbm, 102, rfl⟩
abbrev main_call4_c_2 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_call4_c_3 : Ref sig .tc := ⟨.hbm, 110, rfl⟩
abbrev main_call4_v12 : Ref sig .tc := ⟨.hbm, 111, rfl⟩
abbrev main_call4_v13 : Ref sig .tc := ⟨.hbm, 112, rfl⟩
abbrev main_call4_cst : Ref sig .tc := ⟨.hbm, 113, rfl⟩
abbrev main_call4_v14 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩

abbrev nD : Nat := 1
abbrev τ : Topo := Topo.v7x

variable {F : FTy → Type} [FloatOps F]

class Facts₀ : Prop where
  slices_S16777216x2_S16777216x1_0_0 : S16777216x2.Slices ![0, 0] S16777216x1
  shapeCasts_S16777216x1_S16777216 : S16777216x1.ShapeCasts S16777216
  bcast_S_S16777216 : S_.BroadcastsInDim S16777216 (![] : Fin 0 → Fin S16777216.rank)
  slices_S16777216x2_S16777216x1_0_1 : S16777216x2.Slices ![0, 1] S16777216x1
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  h_S_ : 0 < S_.numel
  gather_S1048576_S16777216x1_S16777216_n_0_n_n_0_1_1_wf : GatherDims.WF S1048576 S16777216x1 S16777216 [] [0] [] [0] [] 1 ![1]

variable [Facts₀]

def gather_S1048576_S16777216x1_S16777216_n_0_n_n_0_1_1 : GatherDims S1048576 S16777216x1 S16777216 where
  offsetDims := []
  collapsedSliceDims := [0]
  operandBatchingDims := []
  startIndicesBatchingDims := []
  startIndexMap := [0]
  indexVectorDim := 1
  sliceSizes := ![1]
  wf := gather_S1048576_S16777216x1_S16777216_n_0_n_n_0_1_1_wf

class Facts : Prop extends Facts₀ where

variable [Facts]
-- ==== Proof.KRun.lean ====
/-
  The idealized kernel's run with its result named: every weakly fair execution of @main terminates without a
  fault, the argument arrays end as launched, and the result buffer ends at the contents the last segment boundary
  assigns it — the fold of @main's three stretches of host operations and two launches over the launch memory.
-/
import proofs.«149824_j24893630447776_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over @main's five segments, read at the result buffer and at the four arguments: the final state holds
    every unscoped buffer at the last boundary's contents, and the arguments' are the launch memory's. -/
theorem run_named : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.KValue

end
-- ==== Proof.Spec.lean ====
/-
  The function both programs compute, index by index, on the extended reals.

  A point `(px, py)` is sent to a cell of a 1024 × 1024 grid: along each axis the coordinate is scaled by 1024,
  rounded down, clamped into `[0, 1023]` and read as a 32-bit integer (`cell`). The two cell numbers are packed into one
  word `cell px · 1024 + cell py`, of which the low twenty bits are kept (`slot`): a position in a table of `2^20`
  entries. The result at point `k` is `w[slot] · x[k] + b[slot]`.
-/
import Idealize.ShloMosaic.PureOps.Ideal
import Idealize.ShloMosaic.Lib.ValueIdx

noncomputable section

namespace Cert.QuadSlot

open Idealize.ShloMosaic Idealize.ShloMosaic.ValueIdx

/-- The cell number along one axis: `⌊p · 1024⌋` clamped into `[0, 1023]`, as a 32-bit integer. -/
def cell (p : Ideal .f32) : BitVec 32 :=
  FloatOps.fptosi 32 (FloatOps.minimumf (Scalar.ofBits (F := Ideal) .f32 0x447FC000#32)
    (FloatOps.maximumf (Scalar.ofBits (F := Ideal) .f32 0x00000000#32)
      (FloatOps.floor (FloatOps.mulf p (Scalar.ofBits (F := Ideal) .f32 0x44800000#32)))))

/-- The table position of a point: the low twenty bits of `cell px · 1024 + cell py`. -/
def slot (px py : Ideal .f32) : BitVec 32 :=
  IntOp.andi (IntOp.addi (IntOp.muli (cell px) 1024#32) (cell py)) 1048575#32

/-- A word masked to its low twenty bits is below `2^20`. -/
theorem and_mask_lt (t : BitVec 32) : (t &&& 1048575#32).toNat < 1048576 := by
  rw [BitVec.toNat_and]
  exact Nat.lt_of_le_of_lt Nat.and_le_right (by decide)

theorem slot_lt (px py : Ideal .f32) : (slot px py).toNat < 1048576 := and_mask_lt _

/-- The result at point `k`: the table entries at the point's slot, applied to `x[k]`. -/
def val (inp : (⟨2, ![16777216, 2]⟩ : Shape).Idx → EReal) (x : (⟨1, ![16777216]⟩ : Shape).Idx → EReal)
    (w b : (⟨1, ![1048576]⟩ : Shape).Idx → EReal) (k : Fin 16777216) : EReal :=
  w (ix1 ⟨(slot (inp (ix2 k (0 : Fin 2))) (inp (ix2 k (1 : Fin 2)))).toNat, slot_lt _ _⟩) * x (ix1 k)
    + b (ix1 ⟨(slot (inp (ix2 k (0 : Fin 2))) (inp (ix2 k (1 : Fin 2)))).toNat, slot_lt _ _⟩)

/-- The whole result array. -/
def G (inp : (⟨2, ![16777216, 2]⟩ : Shape).Idx → EReal) (x : (⟨1, ![16777216]⟩ : Shape).Idx → EReal)
    (w b : (⟨1, ![1048576]⟩ : Shape).Idx → EReal) : (⟨1, ![16777216]⟩ : Shape).Idx → EReal :=
  fun n => val inp x w b (n 0)

end Cert.QuadSlot

end
-- ==== Proof.KRegions.lean ====
/-
  What each of the two kernel launches leaves in its output array, as one function of the arrays the launch
  finds, index by index, on the extended reals.

  Both launches walk a [131072, 128] array in 32 blocks of 4096 rows; every window of a launch uses the same
  block map, so the entry the body reads at a block coordinate sits at the same array index in every window, and the
  blocks tile the array: row `r` lies in block `r / 4096`. The first launch writes, at each index, the table
  position of the point whose two coordinates sit at that index of its two inputs; the second writes
  `w · x + b` at each index.
-/
import proofs.«149824_j24893630447776_1_alg».proof.Proof.Gen.KernelIdeal.Frame
import proofs.«149824_j24893630447776_1_alg».proof.Proof.Spec
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-! ## The first launch: the table positions -/

/-- The array of table positions of two coordinate arrays. -/
def slots (px py : S131072x128.Idx → EReal) : S131072x128.Idx → BitVec 32 :=
  fun i => Cert.QuadSlot.slot (px i) (py i)

/-- The body's stored value, entry by entry, is the table position of the two loaded entries. -/
theorem pay0_eq (x0 x1 : Vec Ideal S4096x128 .f32) :
    k0_pay1 (F := Ideal) x0 x1 = fun y => Cert.QuadSlot.slot (x0 y) (x1 y) := by
  unfold k0_pay1
  simp only [shapeCast_self]
  rfl

/-- Every window of the first launch sits at block `(t, 0)` at point `t`. -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- What point `t` writes back is block `t` of the array of table positions. -/
theorem flushed0_eq (c : Dev nD) (t : Fin cfg0.N) :
    (dat0 V c).flushed 2 t = ((cfg0.win 2).blk t).view.read (Elt Ideal) (slots (V c main_v2) (V c main_v5)) := by
  show (cfg0.win 2).cut (grid0.coords t) ((dat0 V c).after 2 t) = _
  rw [after0_2]
  unfold out0_2
  rw [View.canon_unit_zero off_zero]
  simp only [View.ld_unit_zero (S := S4096x128) off_zero]
  rw [pay0_eq]
  obtain ⟨e0, e1, e2, e3, e4, e5⟩ := idx_facts0 t
  funext j
  show Cert.QuadSlot.slot (V c main_v2 (((cfg0.win 0).blk t).view.emb j)) (V c main_v5 (((cfg0.win 1).blk t).view.emb j))
    = Cert.QuadSlot.slot (V c main_v2 (((cfg0.win 2).blk t).view.emb j)) (V c main_v5 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 128 + 1 * (j 1).val = win0_2.index t (1 : Fin 2) * 128 + 1 * (j 1).val; omega
  rw [h0, h1]

/-- An index lies in point `t`'s block iff each coordinate lies in the block's range on its axis. -/
theorem mem_blk0 (t : Fin cfg0.N) (i : S131072x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v6).slice (win0_2.rect t)).set ↔ _
  rw [View.set_slice_whole, Rect.mem_set_unit]
  exact Iff.rfl

/-- Every block index is some point's. -/
theorem idx_onto0 : ∀ q : Fin 32, ∃ t : Fin cfg0.N, win0_2.index t = ![q.val, 0] :=
  (by decide +kernel : ∀ q : Fin 32, ∃ t : Fin grid0.N, win0_2.index t = ![q.val, 0])

/-- The blocks tile the array: row `r` lies in block `r / 4096`. -/
theorem cover0 (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  obtain ⟨t, ht⟩ := idx_onto0 ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- After the first launch its output array holds the table positions of the two coordinate arrays it found. -/
theorem final0 (c : Dev nD) : (dat0 V c).arrAt 2 cfg0.N = slots (V c main_v2) (V c main_v5) :=
  (dat0 V c).arrAt_eq_of_cover 2 (slots (V c main_v2) (V c main_v5)) (fun t _ => flushed0_eq V c t) cover0

/-! ## The second launch: the affine combination -/

/-- `w · x + b`, index by index. -/
def affine (x w b : S131072x128.Idx → EReal) : S131072x128.Idx → EReal :=
  fun i => w i * x i + b i

/-- The body's stored value, entry by entry. -/
theorem pay1_eq (v0 v2 v5 : Vec Ideal S4096x128 .f32) :
    k1_pay1 (F := Ideal) v0 v2 v5 = fun y => v0 y * v2 y + v5 y := by
  unfold k1_pay1
  simp only [shapeCast_self]
  rfl

/-- Every window of the second launch sits at block `(t, 0)` at point `t`. -/
theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = win1_3.index t (0 : Fin 2)
    ∧ win1_2.index t (1 : Fin 2) = win1_3.index t (1 : Fin 2)
    ∧ win1_3.index t (0 : Fin 2) = t.val ∧ win1_3.index t (1 : Fin 2) = 0 :=
  (by decide +kernel : ∀ t : Fin grid1.N, _)

/-- What point `t` writes back is block `t` of `w · x + b`. -/
theorem flushed1_eq (c : Dev nD) (t : Fin cfg1.N) :
    (dat1 V c).flushed 3 t = ((cfg1.win 3).blk t).view.read (Elt Ideal) (affine (V c main_v21) (V c main_v13) (V c main_v20)) := by
  show (cfg1.win 3).cut (grid1.coords t) ((dat1 V c).after 3 t) = _
  rw [after1_3]
  unfold out1_3
  rw [View.canon_unit_zero off_zero]
  simp only [View.ld_unit_zero (S := S4096x128) off_zero]
  rw [pay1_eq]
  obtain ⟨e0, e1, e2, e3, e4, e5, e6, e7⟩ := idx_facts1 t
  funext j
  show (fun a b d : EReal => a * b + d) (V c main_v13 (((cfg1.win 1).blk t).view.emb j)) (V c main_v21 (((cfg1.win 0).blk t).view.emb j)) (V c main_v20 (((cfg1.win 2).blk t).view.emb j))
    = (fun a b d : EReal => a * b + d) (V c main_v13 (((cfg1.win 3).blk t).view.emb j)) (V c main_v21 (((cfg1.win 3).blk t).view.emb j)) (V c main_v20 (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 4096 + 1 * (j 0).val = win1_3.index t (0 : Fin 2) * 4096 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 4096 + 1 * (j 0).val = win1_3.index t (0 : Fin 2) * 4096 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 4096 + 1 * (j 0).val = win1_3.index t (0 : Fin 2) * 4096 + 1 * (j 0).val; omega
    | ⟨1, _⟩ => show win1_2.index t (1 : Fin 2) * 128 + 1 * (j 1).val = win1_3.index t (1 : Fin 2) * 128 + 1 * (j 1).val; omega
  rw [h0, h1, h2]

theorem mem_blk1 (t : Fin cfg1.N) (i : S131072x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v22).slice (win1_3.rect t)).set ↔ _
  rw [View.set_slice_whole, Rect.mem_set_unit]
  exact Iff.rfl

theorem idx_onto1 : ∀ q : Fin 32, ∃ t : Fin cfg1.N, win1_3.index t = ![q.val, 0] :=
  (by decide +kernel : ∀ q : Fin 32, ∃ t : Fin grid1.N, win1_3.index t = ![q.val, 0])

theorem cover1 (i : S131072x128.Idx) :
    ∃ t : Fin cfg1.N, (cfg1.win 3).flush t = true ∧ i ∈ ((cfg1.win 3).blk t).view.set := by
  have hi0 : (i 0).val < 131072 := (i 0).isLt
  have hi1 : (i 1).val < 128 := (i 1).isLt
  obtain ⟨t, ht⟩ := idx_onto1 ⟨(i 0).val / 4096, by omega⟩
  have q0 : win1_3.index t (0 : Fin 2) = (i 0).val / 4096 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 128 ≤ (i 1).val ∧ (i 1).val < win1_3.index t (1 : Fin 2) * 128 + 128; omega

/-- After the second launch its output array holds `w · x + b` of the three arrays it found. -/
theorem final1 (c : Dev nD) : (dat1 V c).arrAt 3 cfg1.N = affine (V c main_v21) (V c main_v13) (V c main_v20) :=
  (dat1 V c).arrAt_eq_of_cover 3 (affine (V c main_v21) (V c main_v13) (V c main_v20)) (fun t _ => flushed1_eq V c t) cover1

end Cert.KernelIdeal.KValue

end
-- ==== Proof.KFold.lean ====
/-
  @main's three stretches of host operations, read at the buffers the launches and the result depend on, over any
  contents `W` of the buffers the stretch starts from.

  Before the first launch the point array is cut into its two columns, each laid out as [131072, 128]. Between the
  launches each table is gathered at the table positions (a negative position is first moved up by the table
  length, as array indexing does) and `x` is laid out as [131072, 128]. After the second launch its output is laid
  out flat again.
-/
import proofs.«149824_j24893630447776_1_alg».proof.Proof.Gen.KernelIdeal.Launch
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.StableHlo

variable {F : FTy → Type} [FloatOps F]

/-- Column `k` of the point array, laid out as [131072, 128]. -/
def column (off : Fin 2 → Nat) (h : S16777216x2.Slices off S16777216x1) (inp : S16777216x2.Idx → Elt F .f32) :
    S131072x128.Idx → Elt F .f32 :=
  shapeCast S131072x128 (shapeCast S16777216 (extractStridedSlice S16777216x1 off inp h) shapeCasts_S16777216x1_S16777216)
    shapeCasts_S16777216_S131072x128

/-- The start indices of a gather at positions `s`: a negative position moved up by the table length, each as an
    index vector of length one. -/
def starts (s : IVec S131072x128 32) : IVec S131072x128x1 32 :=
  broadcastInDim S131072x128x1 ![0, 1] bcast_S131072x128_S131072x128x1_0_1
    (select (cmpi .slt s (broadcastInDim S131072x128 ![] bcast_S_S131072x128 (constantI S_ 32 0#32)))
      (addi s (broadcastInDim S131072x128 ![] bcast_S_S131072x128 (constantI S_ 32 1048576#32))) s)

variable (W : Valuation τ sig (Elt F))

/-! ## Before the first launch -/

theorem pre_v2 : after hostOps0 W (Proc.devRef .tc main_v2)
    = column ![0, 0] slices_S16777216x2_S16777216x1_0_0 (W (Proc.devRef .tc main_arg0)) := by
  after_results; rfl

theorem pre_v5 : after hostOps0 W (Proc.devRef .tc main_v5)
    = column ![0, 1] slices_S16777216x2_S16777216x1_0_1 (W (Proc.devRef .tc main_arg0)) := by
  after_results; rfl

theorem pre_arg1 : after hostOps0 W (Proc.devRef .tc main_arg1) = W (Proc.devRef .tc main_arg1) := by
  after_results

theorem pre_arg2 : after hostOps0 W (Proc.devRef .tc main_arg2) = W (Proc.devRef .tc main_arg2) := by
  after_results

theorem pre_arg3 : after hostOps0 W (Proc.devRef .tc main_arg3) = W (Proc.devRef .tc main_arg3) := by
  after_results

/-! ## Between the launches -/

theorem mid_v13 : after hostOps1 W (Proc.devRef .tc main_v13)
    = Host.gather gather_S1048576_S131072x128x1_S131072x128_n_0_n_n_0_2_1 (W (Proc.devRef .tc main_arg2))
        (starts (W (Proc.devRef .tc main_v6))) := by
  after_results; rfl

theorem mid_v20 : after hostOps1 W (Proc.devRef .tc main_v20)
    = Host.gather gather_S1048576_S131072x128x1_S131072x128_n_0_n_n_0_2_1 (W (Proc.devRef .tc main_arg3))
        (starts (W (Proc.devRef .tc main_v6))) := by
  after_results; rfl

theorem mid_v21 : after hostOps1 W (Proc.devRef .tc main_v21)
    = shapeCast S131072x128 (W (Proc.devRef .tc main_arg1)) shapeCasts_S16777216_S131072x128 := by
  after_results; rfl

/-! ## After the second launch -/

theorem post_v23 : after hostOps2 W (Proc.devRef .tc main_v23)
    = shapeCast S16777216 (W (Proc.devRef .tc main_v22)) shapeCasts_S131072x128_S16777216 := by
  after_results; rfl

end Cert.KernelIdeal.KValue

end
-- ==== Proof.KResult.lean ====
/-
  The result buffer's final contents as one term of the four argument arrays: the fold of @main over the launch
  memory, read back stretch by stretch and launch by launch.

  The result is the second launch's output laid out flat; that output is `w · x + b` of `x` laid out as
  [131072, 128] and of the two tables gathered at the table positions; the table positions are the first launch's
  output, computed from the two columns of the point array. No argument array is written on the way.
-/
import proofs.«149824_j24893630447776_1_alg».proof.Proof.KRegions
import proofs.«149824_j24893630447776_1_alg».proof.Proof.KFold

noncomputable section

namespace Cert.KernelIdeal.KValue

open Cert.KernelIdeal Cert.KernelIdeal.Gen Idealize.ShloMosaic Idealize.ShloMosaic.TcCoe Idealize.SL.Sem
open Idealize.ShloMosaic.StableHlo

/-- The table positions, from the point array. -/
def slotArr (inp : S16777216x2.Idx → EReal) : S131072x128.Idx → BitVec 32 :=
  slots (column (F := Ideal) ![0, 0] slices_S16777216x2_S16777216x1_0_0 inp)
    (column (F := Ideal) ![0, 1] slices_S16777216x2_S16777216x1_0_1 inp)

/-- A table gathered at the table positions. -/
def gathered (inp : S16777216x2.Idx → EReal) (tbl : S1048576.Idx → EReal) : S131072x128.Idx → EReal :=
  Host.gather gather_S1048576_S131072x128x1_S131072x128_n_0_n_n_0_2_1 tbl (starts (slotArr inp))

/-- The result array as the kernel program computes it. -/
def resultArr (inp : S16777216x2.Idx → EReal) (x : S16777216.Idx → EReal) (w b : S1048576.Idx → EReal) :
    S16777216.Idx → EReal :=
  shapeCast S16777216
    (affine (shapeCast S131072x128 x shapeCasts_S16777216_S131072x128) (gathered inp w) (gathered inp b))
    shapeCasts_S131072x128_S16777216

variable (m : (ℓ : Loc nD τ sig) → Buf (Elt Ideal) ℓ) (ρ : Dev nD → PrngReg)

/-- An argument array is as launched when the first launch is entered … -/
theorem W1_arg1 (c : Dev nD) : W1 m ρ c (Proc.devRef .tc main_arg1) = m ((c : Thread nD τ).loc main_arg1) := by
  show after hostOps0 (W0 m ρ c) (Proc.devRef .tc main_arg1) = _
  rw [pre_arg1]
theorem W1_arg2 (c : Dev nD) : W1 m ρ c (Proc.devRef .tc main_arg2) = m ((c : Thread nD τ).loc main_arg2) := by
  show after hostOps0 (W0 m ρ c) (Proc.devRef .tc main_arg2) = _
  rw [pre_arg2]
theorem W1_arg3 (c : Dev nD) : W1 m ρ c (Proc.devRef .tc main_arg3) = m ((c : Thread nD τ).loc main_arg3) := by
  show after hostOps0 (W0 m ρ c) (Proc.devRef .tc main_arg3) = _
  rw [pre_arg3]

/-- … and when it is left: the first launch's windows are over other buffers. -/
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)

/-- The first launch leaves the table positions of the point array in its output. -/
theorem W2_v6 (c : Dev nD) : W2 m ρ c (Proc.devRef .tc main_v6) = slotArr (m ((c : Thread nD τ).loc main_arg0)) := by
  have h6 : W2 m ρ c (Proc.devRef .tc main_v6) = (dat0 (V1 m ρ) c).arrAt 2 cfg0.N := W2_arr m ρ c 2
  rw [h6, final0]
  have e2 : V1 m ρ c main_v2 = column (F := Ideal) ![0, 0] slices_S16777216x2_S16777216x1_0_0 (m ((c : Thread nD τ).loc main_arg0)) := by
    show after hostOps0 (W0 m ρ c) (Proc.devRef .tc main_v2) = _
    rw [pre_v2]
  have e5 : V1 m ρ c main_v5 = column (F := Ideal) ![0, 1] slices_S16777216x2_S16777216x1_0_1 (m ((c : Thread nD τ).loc main_arg0)) := by
    show after hostOps0 (W0 m ρ c) (Proc.devRef .tc main_v5) = _
    rw [pre_v5]
  rw [e2, e5]
  rfl

/-- What the second launch finds in its three input arrays. -/
theorem V3_v21 (c : Dev nD) : V3 m ρ c main_v21
    = shapeCast S131072x128 (m ((c : Thread nD τ).loc main_arg1)) shapeCasts_S16777216_S131072x128 := by
  show after hostOps1 (W2 m ρ c) (Proc.devRef .tc main_v21) = _
  rw [mid_v21, W2_arg1]
theorem V3_v13 (c : Dev nD) : V3 m ρ c main_v13
    = gathered (m ((c : Thread nD τ).loc main_arg0)) (m ((c : Thread nD τ).loc main_arg2)) := by
  show after hostOps1 (W2 m ρ c) (Proc.devRef .tc main_v13) = _
  rw [mid_v13, W2_arg2, W2_v6]
  rfl
theorem V3_v20 (c : Dev nD) : V3 m ρ c main_v20
    = gathered (m ((c : Thread nD τ).loc main_arg0)) (m ((c : Thread nD τ).loc main_arg3)) := by
  show after hostOps1 (W2 m ρ c) (Proc.devRef .tc main_v20) = _
  rw [mid_v20, W2_arg3, W2_v6]
  rfl

/-- The result buffer at the last boundary is the result array of the launch memory's arguments. -/
theorem result_eq (c : Dev nD) : W5 m ρ c (Proc.devRef .tc main_v23)
    = resultArr (m ((c : Thread nD τ).loc main_arg0)) (m ((c : Thread nD τ).loc main_arg1))
        (m ((c : Thread nD τ).loc main_arg2)) (m ((c : Thread nD τ).loc main_arg3)) := by
  show after hostOps2 (W4 m ρ c) (Proc.devRef .tc main_v23) = _
  rw [post_v23]
  have h22 : W4 m ρ c (Proc.devRef .tc main_v22) = (dat1 (V3 m ρ) c).arrAt 3 cfg1.N := W4_arr m ρ c 3
  rw [h22, final1, V3_v21, V3_v13, V3_v20]
  rfl

end Cert.KernelIdeal.KValue

end
-- ==== Proof.KLayout.lean ====
/-
  The kernel program's layout changes read at coordinates. Position `(r, c)` of a [131072, 128] array is flat
  position `r · 128 + c` of the [16777216] array it was cast from; column `k` of the [16777216, 2] point array, laid
  out as [131072, 128], holds at `(r, c)` coordinate `k` of point `r · 128 + c`.
-/
import proofs.«149824_j24893630447776_1_alg».proof.Proof.KFold
import Idealize.ShloMosaic.Lib.Pipeline.Value
import Idealize.ShloMosaic.Lib.ValueIdx

noncomputable section

namespace Cert.KernelIdeal.KValue

open Cert.KernelIdeal Idealize.ShloMosaic Idealize.ShloMosaic.ValueIdx

/-- The flat position of row `r`, lane `c`. -/
abbrev flat (r : Fin 131072) (c : Fin 128) : Fin 16777216 := ⟨r.val * 128 + c.val, by omega⟩

/-- Every flat position is a row and a lane. -/
theorem exists_flat (k : Fin 16777216) : ∃ (r : Fin 131072) (c : Fin 128), k = flat r c :=
  ⟨⟨k.val / 128, by omega⟩, ⟨k.val % 128, Nat.mod_lt _ (by decide)⟩, Fin.ext (by show k.val = k.val / 128 * 128 + k.val % 128; omega)⟩

variable {α : Type}

/-- A flat array cast to [131072, 128], read at `(r, c)`. -/
theorem cast_rows_apply (x : S16777216.Idx → α) (h : S16777216.ShapeCasts S131072x128) (r : Fin 131072) (c : Fin 128) :
    shapeCast S131072x128 x h (ix2 r c) = x (ix1 (flat r c)) :=
  shapeCast_apply x h (ix2 r c) (ix1 (flat r c)) (by rw [Shape.rowMajor_val_one, Shape.rowMajor_val_two]; rfl)

/-- A [131072, 128] array cast flat, read at position `r · 128 + c`. -/
theorem cast_flat_apply (y : S131072x128.Idx → α) (h : S131072x128.ShapeCasts S16777216) (r : Fin 131072) (c : Fin 128) :
    shapeCast S16777216 y h (ix1 (flat r c)) = y (ix2 r c) :=
  shapeCast_apply y h (ix1 (flat r c)) (ix2 r c) (by rw [Shape.rowMajor_val_one, Shape.rowMajor_val_two]; rfl)

/-- A [16777216, 1] array cast flat, read at position `k`. -/
theorem cast_col_apply (y : S16777216x1.Idx → α) (h : S16777216x1.ShapeCasts S16777216) (k : Fin 16777216) :
    shapeCast S16777216 y h (ix1 k) = y (ix2 k (0 : Fin 1)) :=
  shapeCast_apply y h (ix1 k) (ix2 k (0 : Fin 1)) (by rw [Shape.rowMajor_val_one, Shape.rowMajor_val_two]; show k.val * 1 + 0 = k.val; omega)

/-- Column `q` of the point array, laid out as [131072, 128], read at `(r, c)`: coordinate `q` of point `r · 128 + c`. -/
theorem column_apply {F : FTy → Type} [FloatOps F] (q : Fin 2) (h : S16777216x2.Slices ![0, q.val] S16777216x1)
    (inp : S16777216x2.Idx → Elt F .f32) (r : Fin 131072) (c : Fin 128) :
    column ![0, q.val] h inp (ix2 r c) = inp (ix2 (flat r c) q) := by
  unfold column
  rw [cast_rows_apply, cast_col_apply]
  refine extractStridedSlice_apply _ _ _ _ (ix2 (flat r c) q) ?_
  intro a
  match a with
  | ⟨0, _⟩ => show (flat r c).val = 0 + (flat r c).val; omega
  | ⟨1, _⟩ => show q.val = q.val + 0; omega

/-- The first column at `(r, c)`: the first coordinate of point `r · 128 + c`. -/
theorem column0_apply {F : FTy → Type} [FloatOps F] (h : S16777216x2.Slices ![0, 0] S16777216x1)
    (inp : S16777216x2.Idx → Elt F .f32) (r : Fin 131072) (c : Fin 128) :
    column ![0, 0] h inp (ix2 r c) = inp (ix2 (flat r c) (0 : Fin 2)) :=
  column_apply (0 : Fin 2) h inp r c

/-- The second column at `(r, c)`: the second coordinate of point `r · 128 + c`. -/
theorem column1_apply {F : FTy → Type} [FloatOps F] (h : S16777216x2.Slices ![0, 1] S16777216x1)
    (inp : S16777216x2.Idx → Elt F .f32) (r : Fin 131072) (c : Fin 128) :
    column ![0, 1] h inp (ix2 r c) = inp (ix2 (flat r c) (1 : Fin 2)) :=
  column_apply (1 : Fin 2) h inp r c

end Cert.KernelIdeal.KValue

end
-- ==== Proof.LibWords.lean ====
/-
  General facts about 32-bit words and about a few float literals read as extended reals.

  * The remainder by `2^20` with the sign correction that turns the truncated remainder into the floored one is, for
    every 32-bit word, the mask of the low twenty bits.
  * A word below `2^20` is nonnegative as a signed number, so the comparisons and the clamp of an index into
    `[0, 2^20 - 1]` leave it alone.
  * The float literals `0`, `1`, `1023` as extended reals, and the two laws `p - 0 = p`, `p / 1 = p`.
-/
import Idealize.ShloMosaic.PureOps.Ideal
import Idealize.ShloMosaic.Lib.ValueIdx

namespace Cert.Lib.Words

open Idealize.ShloMosaic

/-! ## The floored remainder by `2^20` is the low-twenty-bit mask -/

/-- The word `2^20` read as a signed integer is `2^20`. -/
theorem toInt_lit : (1048576#32 : BitVec 32).toInt = 1048576 := by decide

/-- Masking with `2^20 - 1` is the remainder of the unsigned value by `2^20`. -/
theorem toNat_and_mask (t : BitVec 32) : (t &&& 1048575#32).toNat = t.toNat % 1048576 := by
  rw [BitVec.toNat_and]
  exact Nat.and_two_pow_sub_one_eq_mod t.toNat 20

/-- The signed remainder by `2^20`, as an integer, is the truncated remainder of the signed value. -/
theorem toInt_srem_lit (t : BitVec 32) : (t.srem 1048576#32).toInt = t.toInt.tmod 1048576 := by
  rw [BitVec.toInt_srem, toInt_lit]

/-- The core fact on plain words. Let `r` be the truncated remainder of `t` by `2^20` (it has the sign of `t`). Adding
    `2^20` to `r` exactly when `r < 0` gives the floored remainder `t mod 2^20 ∈ [0, 2^20)`; as `2^20` divides `2^32`, that
    is also the remainder of the unsigned value of `t`, i.e. its low twenty bits. -/
theorem srem_fix_core (t : BitVec 32) :
    (if (t.srem 1048576#32).toInt < 0 then t.srem 1048576#32 + 1048576#32 else t.srem 1048576#32)
      = t &&& 1048575#32 := by
  have hr := toInt_srem_lit t
  have hm := toNat_and_mask t
  have ht := BitVec.toInt_eq_toNat_cond t
  have hrc := BitVec.toInt_eq_toNat_cond (t.srem 1048576#32)
  have htl := t.isLt
  have hrl := (t.srem 1048576#32).isLt
  apply BitVec.eq_of_toNat_eq
  rw [hm]
  by_cases hneg : t.toInt < 0
  · -- a negative dividend: the truncated remainder is `-((-t) mod 2^20)`
    have h1 : t.toInt.tmod 1048576 = -((-t.toInt) % 1048576) := by
      rw [← Int.tmod_eq_emod_of_nonneg (by omega), Int.neg_tmod, neg_neg]
    split <;> rename_i hs
    · rw [BitVec.toNat_add]
      show ((t.srem 1048576#32).toNat + 1048576) % 2 ^ 32 = _
      split at ht <;> split at hrc <;> omega
    · split at ht <;> split at hrc <;> omega
  · -- a nonnegative dividend: the truncated remainder is the floored one
    have hpos : 0 ≤ t.toInt := by omega
    have h1 : t.toInt.tmod 1048576 = t.toInt % 1048576 := Int.tmod_eq_emod_of_nonneg hpos
    split <;> rename_i hs
    · omega
    · split at ht <;> split at hrc <;> omega

/-- The constant divisor as the reference prints it: a zero divisor would be replaced by one, and `2^20` is not zero. -/
theorem divisor_eq :
    Scalar.select (IntOp.cmpi .eq (1048576#32 : BitVec 32) 0#32) (1#32 : BitVec 32) 1048576#32 = 1048576#32 := by
  decide

/-- Dividing by `2^20` is never a corner of signed division, so on every unit the remainder is `BitVec.srem`. -/
theorem remsi_lit (u : ArithUnit) (t : BitVec 32) : IntOp.remsi u t 1048576#32 = t.srem 1048576#32 := by
  unfold IntOp.remsi
  rw [if_neg]
  rintro (h | ⟨-, h⟩) <;> revert h <;> decide

/-- The sign-corrected remainder by `2^20`, in the scalar operations of the machine: take the truncated remainder `r`;
    where the sign of `r` differs from the sign of the divisor and `r ≠ 0`, add the divisor. For every 32-bit word `t`
    this is the low-twenty-bit mask of `t`. -/
theorem remsi_fix (u : ArithUnit) (t : BitVec 32) :
    Scalar.select
      (IntOp.andi
        (IntOp.cmpi .ne (IntOp.cmpi .slt (IntOp.remsi u t 1048576#32) 0#32) (IntOp.cmpi .slt (1048576#32 : BitVec 32) 0#32))
        (IntOp.cmpi .ne (IntOp.remsi u t 1048576#32) 0#32))
      (IntOp.addi (IntOp.remsi u t 1048576#32) 1048576#32) (IntOp.remsi u t 1048576#32)
      = IntOp.andi t 1048575#32 := by
  rw [remsi_lit, show IntOp.andi t 1048575#32 = t &&& 1048575#32 from rfl, ← srem_fix_core t]
  generalize t.srem 1048576#32 = r
  have h0 : (0#32 : BitVec 32).toInt = 0 := by decide
  have hslt : r.slt 0#32 = decide (r.toInt < 0) := by rw [BitVec.slt_eq_decide, h0]
  have hd : (1048576#32 : BitVec 32).slt 0#32 = false := by decide
  unfold Scalar.select IntOp.andi IntOp.addi IntOp.cmpi
  by_cases hs : r.toInt < 0
  · have hne : (r != 0#32) = true := by
      rw [bne_iff_ne]; rintro rfl; exact absurd hs (by decide)
    simp only [hslt, hd, hs, hne, decide_true]
    rfl
  · simp only [hslt, hd, hs, decide_false]
    cases (r != 0#32) <;> rfl

/-! ## A word below `2^20` -/

/-- A word below `2^20` read as a signed integer is its unsigned value. -/
theorem toInt_of_lt {s : BitVec 32} (h : s.toNat < 1048576) : s.toInt = (s.toNat : Int) :=
  BitVec.toInt_eq_toNat_of_lt (by omega)

/-- A word below `2^20` is not negative: the test `s < 0` answers false. -/
theorem cmpi_slt_zero {s : BitVec 32} (h : s.toNat < 1048576) : IntOp.cmpi .slt s 0#32 = 0#1 := by
  have h0 : (0#32 : BitVec 32).toInt = 0 := by decide
  have hs : s.slt 0#32 = false := by
    rw [BitVec.slt_eq_decide, h0, toInt_of_lt h, decide_eq_false_iff_not]; omega
  unfold IntOp.cmpi
  simp only [hs]
  rfl

/-- A word below `2^20` is nonnegative: the test `s ≥ 0` answers true. -/
theorem cmpi_sge_zero {s : BitVec 32} (h : s.toNat < 1048576) : IntOp.cmpi .sge s 0#32 = 1#1 := by
  have h0 : (0#32 : BitVec 32).toInt = 0 := by decide
  have hs : (0#32 : BitVec 32).sle s = true := by
    rw [BitVec.sle_eq_decide, h0, toInt_of_lt h, decide_eq_true_eq]; omega
  unfold IntOp.cmpi
  simp only [hs]
  rfl

/-- A word below `2^20` is at most `2^20 - 1` as a signed number: the test `s ≤ 2^20 - 1` answers true. -/
theorem cmpi_sle_max {s : BitVec 32} (h : s.toNat < 1048576) : IntOp.cmpi .sle s 1048575#32 = 1#1 := by
  have h0 : (1048575#32 : BitVec 32).toInt = 1048575 := by decide
  have hs : s.sle 1048575#32 = true := by
    rw [BitVec.sle_eq_decide, h0, toInt_of_lt h, decide_eq_true_eq]; omega
  unfold IntOp.cmpi
  simp only [hs]
  rfl

/-- For a word below `2^20` the signed value, read back as a natural number, is the unsigned value. -/
theorem toInt_toNat_of_lt {s : BitVec 32} (h : s.toNat < 1048576) : s.toInt.toNat = s.toNat := by
  rw [toInt_of_lt h]; exact Int.toNat_natCast _

/-- Clamping the index of a word below `2^20` to the last table position `2^20 - 1` changes nothing. -/
theorem min_toInt_toNat_of_lt {s : BitVec 32} (h : s.toNat < 1048576) :
    min s.toInt.toNat (1048576 - 1) = s.toNat := by
  rw [toInt_toNat_of_lt h]; omega

/-- The wrap-around of a negative index (add the table length where `s < 0`) leaves a word below `2^20` alone. -/
theorem select_wrap_of_lt {s : BitVec 32} (h : s.toNat < 1048576) :
    Scalar.select (IntOp.cmpi .slt s 0#32) (IntOp.addi s 1048576#32) s = s := by
  rw [cmpi_slt_zero h]
  rfl

/-! ## Float literals as extended reals, and two laws -/

noncomputable section

/-- The pattern of `1.0` denotes `1`. -/
theorem ofBits_one : Ideal.ofBits .f32 0x3F800000#32 = 1 := by
  simp [Ideal.ofBits, Ideal.ieee, -EReal.coe_mul]; norm_num

/-- The pattern of `+0.0` denotes `0`. -/
theorem ofBits_zero : Ideal.ofBits .f32 0x00000000#32 = 0 := by
  simp [Ideal.ofBits, Ideal.ieee]

/-- The pattern `0x447FC000` denotes `1023`. -/
theorem ofBits_1023 : Ideal.ofBits .f32 0x447FC000#32 = ((1023 : ℝ) : EReal) := by
  simp [Ideal.ofBits, Ideal.ieee, -EReal.coe_mul]; norm_num

/-- The pattern `0x44800000` denotes `1024`. -/
theorem ofBits_1024 : Ideal.ofBits .f32 0x44800000#32 = ((1024 : ℝ) : EReal) := by
  simp [Ideal.ofBits, Ideal.ieee, -EReal.coe_mul]; norm_num

/-- The integer `0` converted to a float is the float literal `+0.0`. -/
theorem sitofp_zero : FloatOps.sitofp (F := Ideal) .f32 (0#32 : BitVec 32) = Ideal.ofBits .f32 0x00000000#32 := by
  rw [ofBits_zero]
  show (((0#32 : BitVec 32).toInt : ℝ) : EReal) = 0
  rw [show (0#32 : BitVec 32).toInt = 0 by decide]; norm_num

/-- The integer `1023` converted to a float is the float literal `1023.0`. -/
theorem sitofp_1023 : FloatOps.sitofp (F := Ideal) .f32 (1023#32 : BitVec 32) = Ideal.ofBits .f32 0x447FC000#32 := by
  rw [ofBits_1023]
  show (((1023#32 : BitVec 32).toInt : ℝ) : EReal) = _
  rw [show (1023#32 : BitVec 32).toInt = 1023 by decide]; norm_num

/-- Subtracting the literal `+0.0` changes no extended real. -/
theorem sub_ofBits_zero (p : EReal) : p - Ideal.ofBits .f32 0x00000000#32 = p := by
  rw [ofBits_zero, sub_zero]

/-- Dividing by the literal `1.0` changes no extended real (the infinities included). -/
theorem div_ofBits_one (p : EReal) : Ideal.div p (Ideal.ofBits .f32 0x3F800000#32) = p := by
  rw [ofBits_one, show (1 : EReal) = ((1 : ℝ) : EReal) from rfl, Ideal.div_coe one_ne_zero]
  norm_num

/-- The reference normalises a coordinate as `(p - 0) / 1` before scaling; that is `p` itself. -/
theorem mulf_hostDivf_subf (p c : Ideal .f32) :
    FloatOps.mulf (FloatOps.hostDivf (FloatOps.subf p (Ideal.ofBits .f32 0x00000000#32)) (Ideal.ofBits .f32 0x3F800000#32)) c
      = FloatOps.mulf p c := by
  rw [Ideal.hostDivf_def, Ideal.subf_def, sub_ofBits_zero, div_ofBits_one]

/-- The host's `floor` and the kernel's `floor` are the same function on the extended reals. -/
theorem hostUnary_floor (x : Ideal .f32) : FloatOps.hostUnary .floor x = FloatOps.floor x := rfl

end

noncomputable section

/-- The same literals in the spelling of the float operations' own `ofBits`: at the extended reals it is `Ideal.ofBits`. -/
theorem floatOps_ofBits (b : BitVec 32) : FloatOps.ofBits (F := Ideal) .f32 b = Ideal.ofBits .f32 b := rfl

/-- The integer `0` converted to a float is the literal `+0.0`, in the float operations' spelling. -/
theorem sitofp_zero' : FloatOps.sitofp (F := Ideal) .f32 (0#32 : BitVec 32) = FloatOps.ofBits (F := Ideal) .f32 0x00000000#32 :=
  sitofp_zero

/-- The integer `1023` converted to a float is the literal `1023.0`, in the float operations' spelling. -/
theorem sitofp_1023' : FloatOps.sitofp (F := Ideal) .f32 (1023#32 : BitVec 32) = FloatOps.ofBits (F := Ideal) .f32 0x447FC000#32 :=
  sitofp_1023

/-- `(p - 0) / 1` scaled is `p` scaled, with the two literals in the float operations' spelling. -/
theorem mulf_hostDivf_subf' (p c : Ideal .f32) :
    FloatOps.mulf (FloatOps.hostDivf (FloatOps.subf p (FloatOps.ofBits (F := Ideal) .f32 0x00000000#32))
      (FloatOps.ofBits (F := Ideal) .f32 0x3F800000#32)) c = FloatOps.mulf p c :=
  mulf_hostDivf_subf p c

/-- `(p - 0) / 1` is `p`, with the two literals in the float operations' spelling. -/
theorem hostDivf_subf (p : Ideal .f32) :
    FloatOps.hostDivf (FloatOps.subf p (FloatOps.ofBits (F := Ideal) .f32 0x00000000#32))
      (FloatOps.ofBits (F := Ideal) .f32 0x3F800000#32) = p := by
  show Ideal.div (p - Ideal.ofBits .f32 0x00000000#32) (Ideal.ofBits .f32 0x3F800000#32) = p
  rw [sub_ofBits_zero, div_ofBits_one]

end

end Cert.Lib.Words
-- ==== Proof.KIndex.lean ====
/-
  The kernel program's result array is the specification's, index by index.

  Flat position `r · 128 + c` of the result is entry `(r, c)` of `w' · x' + b'`. There `x'` is `x` at the same flat
  position; the table position is that of point `r · 128 + c` (its two coordinates sit at `(r, c)` of the two
  columns); and a gathered table at `(r, c)` is the table at that position: the position is below `2^20`, so it is
  not negative, is not moved, and the gather's clamp into `[0, 2^20 − 1]` leaves it where it is.
-/
import proofs.«149824_j24893630447776_1_alg».proof.Proof.KResult
import proofs.«149824_j24893630447776_1_alg».proof.Proof.KLayout
import proofs.«149824_j24893630447776_1_alg».proof.Proof.LibWords
import proofs.«149824_j24893630447776_1_alg».proof.Proof.Spec

noncomputable section

namespace Cert.KernelIdeal.KValue

open Cert.KernelIdeal Idealize.ShloMosaic Idealize.ShloMosaic.ValueIdx

/-- The start index of the gather at `(r, c)` is the position itself when the position is below `2^20`. -/
theorem starts_apply (s : IVec S131072x128 32) (y : S131072x128.Idx) (h : (s y).toNat < 1048576) :
    starts s (takeIdx y) = s y := by
  unfold starts
  refine (broadcastInDim_apply _ _ _ (takeIdx y) y ?_).trans ?_
  · intro a
    match a with
    | ⟨0, _⟩ => show (y 0).val = if (131072 : Nat) = 1 then 0 else (y 0).val; rw [if_neg (by decide)]
    | ⟨1, _⟩ => show (y 1).val = if (128 : Nat) = 1 then 0 else (y 1).val; rw [if_neg (by decide)]
  · show Scalar.select (IntOp.cmpi .slt (s y) 0#32) (IntOp.addi (s y) 1048576#32) (s y) = s y
    exact Cert.Lib.Words.select_wrap_of_lt h

/-- A gathered table at `(r, c)` is the table at the point's position. -/
theorem gathered_apply (inp : S16777216x2.Idx → EReal) (tbl : S1048576.Idx → EReal) (r : Fin 131072) (c : Fin 128)
    (s : BitVec 32) (hs : slotArr inp (ix2 r c) = s) (hlt : s.toNat < 1048576) :
    gathered inp tbl (ix2 r c) = tbl (ix1 ⟨s.toNat, hlt⟩) := by
  subst hs
  unfold gathered
  refine (gather_take_apply (N := 1048576) (R := 131072) (C := 128) (by decide)
    Facts₀.gather_S1048576_S131072x128x1_S131072x128_n_0_n_n_0_2_1_wf tbl (starts (slotArr inp)) (ix2 r c)).trans ?_
  refine congrArg tbl (congrArg ix1 (Fin.ext ?_))
  show min ((starts (slotArr inp) (takeIdx (ix2 r c))).toInt.toNat) (1048576 - 1) = (slotArr inp (ix2 r c)).toNat
  rw [starts_apply _ _ hlt]
  exact Cert.Lib.Words.min_toInt_toNat_of_lt hlt

/-- The table position at `(r, c)` is that of point `r · 128 + c`. -/
theorem slotArr_apply (inp : S16777216x2.Idx → EReal) (r : Fin 131072) (c : Fin 128) :
    slotArr inp (ix2 r c) = Cert.QuadSlot.slot (inp (ix2 (flat r c) (0 : Fin 2))) (inp (ix2 (flat r c) (1 : Fin 2))) := by
  unfold slotArr slots
  rw [column0_apply, column1_apply]

/-- The kernel program's result array is the specification's. -/
theorem resultArr_eq (inp : S16777216x2.Idx → EReal) (x : S16777216.Idx → EReal) (w b : S1048576.Idx → EReal) :
    resultArr inp x w b = Cert.QuadSlot.G inp x w b := by
  funext n
  obtain ⟨r, c, hk⟩ := exists_flat (n 0)
  have hn : n = ix1 (flat r c) := (eq_ix1 n).trans (congrArg ix1 hk)
  rw [hn]
  show resultArr inp x w b (ix1 (flat r c)) = Cert.QuadSlot.val inp x w b (flat r c)
  unfold resultArr
  rw [cast_flat_apply]
  unfold affine
  rw [cast_rows_apply, gathered_apply inp w r c _ (slotArr_apply inp r c) (Cert.QuadSlot.slot_lt _ _),
    gathered_apply inp b r c _ (slotArr_apply inp r c) (Cert.QuadSlot.slot_lt _ _)]
  rfl

end Cert.KernelIdeal.KValue

end
-- ==== Proof.KValue.lean ====
/-
  The idealized kernel's run, its result named by the specification: every weakly fair execution terminates without
  a fault, the result buffer ends at `w[slot] · x + b[slot]` of the launch memory's argument arrays, index by index,
  and the arguments end as launched.
-/
import proofs.«149824_j24893630447776_1_alg».proof.Proof.KRun
import proofs.«149824_j24893630447776_1_alg».proof.Proof.KIndex

noncomputable section

namespace Cert.KernelIdeal.KValue

open Cert.KernelIdeal Cert.KernelIdeal.Gen Idealize.ShloMosaic Idealize.ShloMosaic.TcCoe Idealize.SL.Sem

/-- The run with the result at the specification's function of the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23)
        = Cert.QuadSlot.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun r h c => ⟨(h c).1.trans ((result_eq m ρ c).trans (resultArr_eq _ _ _ _)), (h c).2⟩)
    (run_named (F := Ideal) m ρ)

end Cert.KernelIdeal.KValue

end
-- ==== Proof.RefOps.lean ====
/-
  The reference program's @main as a straight line of host operations, the module-local functions it calls
  written out at their call sites over each call's own buffers. The line is cut into six consecutive pieces:
  the cell number along the first axis, the cell number along the second axis, the packed word and its
  remainder by 2^20, the two table look-ups, and the final multiply-add.
-/
import proofs.«149824_j24893630447776_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The six operations of one call of the clamp: the two integer bounds converted and broadcast, the maximum with the
    lower one, the minimum with the upper one. -/
abbrev clipOps (arg0 : TRef sig ⟨S16777216, .f32⟩) (arg1 arg2 : TRef sig ⟨S_, .i32⟩) (φ : fn_clip.Bufs) :
    List (HloOp τ sig (Elt F)) :=
  [ TRef.unary arg1 φ.v0 (sitofp .f32),
    TRef.unary φ.v0 φ.v1 (broadcastInDim S16777216 ![] bcast_S_S16777216),
    TRef.binary φ.v1 arg0 φ.v2 maximumf,
    TRef.unary arg2 φ.v3 (sitofp .f32),
    TRef.unary φ.v3 φ.v4 (broadcastInDim S16777216 ![] bcast_S_S16777216),
    TRef.binary φ.v4 φ.v2 φ.v5 minimumf ]

/-- The twenty-two operations of one call of the integer remainder with the sign of the divisor (the guard of a
    zero divisor through the scalar select included). -/
abbrev remainderOps (arg0 : TRef sig ⟨S16777216, .i32⟩) (arg1 : TRef sig ⟨S_, .i32⟩) (φ : fn_remainder.Bufs) :
    List (HloOp τ sig (Elt F)) :=
  [ TRef.unary arg1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S16777216 ![] bcast_S_S16777216),
    TRef.binary arg0 φ.v3 φ.v4 Host.remsi,
    TRef.nullary φ.c_1 (constantI S_ 32 0#32),
    TRef.unary φ.c_1 φ.v5 (broadcastInDim S16777216 ![] bcast_S_S16777216),
    TRef.binary φ.v4 φ.v5 φ.v6 (cmpi .ne),
    TRef.nullary φ.c_2 (constantI S_ 32 0#32),
    TRef.unary φ.c_2 φ.v7 (broadcastInDim S16777216 ![] bcast_S_S16777216),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S16777216 ![] bcast_S_S16777216),
    TRef.binary φ.v8 φ.v10 φ.v11 (cmpi .ne),
    TRef.binary φ.v11 φ.v6 φ.v12 andi,
    TRef.unary φ.call0.v0 φ.v13 (broadcastInDim S16777216 ![] bcast_S_S16777216),
    TRef.binary φ.v4 φ.v13 φ.v14 addi,
    TRef.ternary φ.v12 φ.v14 φ.v4 φ.v15 select ]

/-- The twenty-two operations of one call of the table look-up: a negative index moved up by the table's length,
    the in-bounds mask, the gather, and the fill where the mask is off. -/
abbrev takeOps (arg0 : TRef sig ⟨S1048576, .f32⟩) (arg1 : TRef sig ⟨S16777216, .i32⟩) (φ : fn_take.Bufs) :
    List (HloOp τ sig (Elt F)) :=
  [ TRef.nullary φ.c (constantI S_ 32 0#32),
    TRef.unary φ.c φ.v0 (broadcastInDim S16777216 ![] bcast_S_S16777216),
    TRef.binary arg1 φ.v0 φ.v1 (cmpi .slt),
    TRef.nullary φ.c_0 (constantI S_ 32 1048576#32),
    TRef.unary φ.c_0 φ.v2 (broadcastInDim S16777216 ![] bcast_S_S16777216),
    TRef.binary arg1 φ.v2 φ.v3 addi,
    TRef.ternary φ.v1 φ.v3 arg1 φ.call0.v0 select,
    TRef.unary φ.call0.v0 φ.v5 (broadcastInDim S16777216x1 ![0] bcast_S16777216_S16777216x1_0),
    TRef.nullary φ.c_1 (constantI S1 32 1048575#32),
    TRef.nullary φ.c_2 (constantI S_ 32 0#32),
    TRef.unary φ.c_2 φ.v6 (broadcastInDim S16777216x1 ![] bcast_S_S16777216x1),
    TRef.binary φ.v5 φ.v6 φ.v7 (cmpi .sge),
    TRef.unary φ.c_1 φ.v8 (broadcastInDim S1x1 ![1] bcast_S1_S1x1_1),
    TRef.unary φ.v8 φ.v9 (broadcastInDim S16777216x1 ![0, 1] bcast_S1x1_S16777216x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16777216x1_S16777216_d1 h_S_),
    TRef.binary arg0 φ.v5 φ.v13 (fun x i => Host.gather gather_S1048576_S16777216x1_S16777216_n_0_n_n_0_1_1 x i),
    TRef.nullary φ.cst (constant S_ .f32 0x7FC00000#32),
    TRef.unary φ.cst φ.v14 (broadcastInDim S16777216 ![] bcast_S_S16777216),
    TRef.ternary φ.v12 φ.v13 φ.v14 φ.v15 select ]

/-- The first coordinate's cell number: column 0 of the points, scaled, rounded down, clamped, read as an integer. -/
abbrev opsA : List (HloOp τ sig (Elt F)) :=
  [ unary main_arg0 main_v0 ((extractStridedSlice S16777216x1 ![0, 0] · slices_S16777216x2_S16777216x1_0_0) : (⟨S16777216x2, .f32⟩ : BufTy).Contents (Elt F) → (⟨S16777216x1, .f32⟩ : BufTy).Contents (Elt F)),
    reshape main_v0 main_v1 rfl shapeCasts_S16777216x1_S16777216,
    nullary main_cst (constant S_ .f32 0x00000000#32),
    unary main_cst main_v2 (broadcastInDim S16777216 ![] bcast_S_S16777216 : (⟨S_, .f32⟩ : BufTy).Contents (Elt F) → (⟨S16777216, .f32⟩ : BufTy).Contents (Elt F)),
    binary main_v1 main_v2 main_v3 (subf : (⟨S16777216, .f32⟩ : BufTy).Contents (Elt F) → (⟨S16777216, .f32⟩ : BufTy).Contents (Elt F) → (⟨S16777216, .f32⟩ : BufTy).Contents (Elt F)),
    nullary main_cst_0 (constant S_ .f32 0x3F800000#32),
    unary main_cst_0 main_v4 (broadcastInDim S16777216 ![] bcast_S_S16777216 : (⟨S_, .f32⟩ : BufTy).Contents (Elt F) → (⟨S16777216, .f32⟩ : BufTy).Contents (Elt F)),
    binary main_v3 main_v4 main_v5 (Host.divf : (⟨S16777216, .f32⟩ : BufTy).Contents (Elt F) → (⟨S16777216, .f32⟩ : BufTy).Contents (Elt F) → (⟨S16777216, .f32⟩ : BufTy).Contents (Elt F)),
    nullary main_cst_1 (constant S_ .f32 0x44800000#32),
    unary main_cst_1 main_v6 (broadcastInDim S16777216 ![] bcast_S_S16777216 : (⟨S_, .f32⟩ : BufTy).Contents (Elt F) → (⟨S16777216, .f32⟩ : BufTy).Contents (Elt F)),
    binary main_v5 main_v6 main_v7 (mulf : (⟨S16777216, .f32⟩ : BufTy).Contents (Elt F) → (⟨S16777216, .f32⟩ : BufTy).Contents (Elt F) → (⟨S16777216, .f32⟩ : BufTy).Contents (Elt F)),
    unary main_v7 main_v8 (Host.floor : (⟨S16777216, .f32⟩ : BufTy).Contents (Elt F) → (⟨S16777216, .f32⟩ : BufTy).Contents (Elt F)),
    nullary main_c (constantI S_ 32 0#32),
    nullary main_c_2 (constantI S_ 32 1023#32) ]
  ++ clipOps (.of main_v8) (.of main_c) (.of main_c_2) main_call0
  ++ [ unary main_v9 main_v10 (fptosi 32 : (⟨S16777216, .f32⟩ : BufTy).Contents (Elt F) → (⟨S16777216, .i32⟩ : BufTy).Contents (Elt F)) ]

/-- The second coordinate's cell number: the same over column 1. -/
abbrev opsB : List (HloOp τ sig (Elt F)) :=
  [ unary main_arg0 main_v11 ((extractStridedSlice S16777216x1 ![0, 1] · slices_S16777216x2_S16777216x1_0_1) : (⟨S16777216x2, .f32⟩ : BufTy).Contents (Elt F) → (⟨S16777216x1, .f32⟩ : BufTy).Contents (Elt F)),
    reshape main_v11 main_v12 rfl shapeCasts_S16777216x1_S16777216,
    nullary main_cst_3 (constant S_ .f32 0x00000000#32),
    unary main_cst_3 main_v13 (broadcastInDim S16777216 ![] bcast_S_S16777216 : (⟨S_, .f32⟩ : BufTy).Contents (Elt F) → (⟨S16777216, .f32⟩ : BufTy).Contents (Elt F)),
    binary main_v12 main_v13 main_v14 (subf : (⟨S16777216, .f32⟩ : BufTy).Contents (Elt F) → (⟨S16777216, .f32⟩ : BufTy).Contents (Elt F) → (⟨S16777216, .f32⟩ : BufTy).Contents (Elt F)),
    nullary main_cst_4 (constant S_ .f32 0x3F800000#32),
    unary main_cst_4 main_v15 (broadcastInDim S16777216 ![] bcast_S_S16777216 : (⟨S_, .f32⟩ : BufTy).Contents (Elt F) → (⟨S16777216, .f32⟩ : BufTy).Contents (Elt F)),
    binary main_v14 main_v15 main_v16 (Host.divf : (⟨S16777216, .f32⟩ : BufTy).Contents (Elt F) → (⟨S16777216, .f32⟩ : BufTy).Contents (Elt F) → (⟨S16777216, .f32⟩ : BufTy).Contents (Elt F)),
    nullary main_cst_5 (constant S_ .f32 0x44800000#32),
    unary main_cst_5 main_v17 (broadcastInDim S16777216 ![] bcast_S_S16777216 : (⟨S_, .f32⟩ : BufTy).Contents (Elt F) → (⟨S16777216, .f32⟩ : BufTy).Contents (Elt F)),
    binary main_v16 main_v17 main_v18 (mulf : (⟨S16777216, .f32⟩ : BufTy).Contents (Elt F) → (⟨S16777216, .f32⟩ : BufTy).Contents (Elt F) → (⟨S16777216, .f32⟩ : BufTy).Contents (Elt F)),
    unary main_v18 main_v19 (Host.floor : (⟨S16777216, .f32⟩ : BufTy).Contents (Elt F) → (⟨S16777216, .f32⟩ : BufTy).Contents (Elt F)),
    nullary main_c_6 (constantI S_ 32 0#32),
    nullary main_c_7 (constantI S_ 32 1023#32) ]
  ++ clipOps (.of main_v19) (.of main_c_6) (.of main_c_7) main_call1
  ++ [ unary main_v20 main_v21 (fptosi 32 : (⟨S16777216, .f32⟩ : BufTy).Contents (Elt F) → (⟨S16777216, .i32⟩ : BufTy).Contents (Elt F)) ]

/-- The packed word (first cell number times 1024, plus the second) and its remainder by 2^20. -/
abbrev opsC : List (HloOp τ sig (Elt F)) :=
  [ nullary main_c_8 (constantI S_ 32 1024#32),
    unary main_c_8 main_v22 (broadcastInDim S16777216 ![] bcast_S_S16777216 : (⟨S_, .i32⟩ : BufTy).Contents (Elt F) → (⟨S16777216, .i32⟩ : BufTy).Contents (Elt F)),
    binary main_v10 main_v22 main_v23 (muli : (⟨S16777216, .i32⟩ : BufTy).Contents (Elt F) → (⟨S16777216, .i32⟩ : BufTy).Contents (Elt F) → (⟨S16777216, .i32⟩ : BufTy).Contents (Elt F)),
    binary main_v23 main_v21 main_v24 (addi : (⟨S16777216, .i32⟩ : BufTy).Contents (Elt F) → (⟨S16777216, .i32⟩ : BufTy).Contents (Elt F) → (⟨S16777216, .i32⟩ : BufTy).Contents (Elt F)),
    nullary main_c_9 (constantI S_ 32 1048576#32) ]
  ++ remainderOps (.of main_v24) (.of main_c_9) main_call2

/-- The look-up in the first table. -/
abbrev opsD : List (HloOp τ sig (Elt F)) := takeOps (.of main_arg2) (.of main_v25) main_call3

/-- The look-up in the second table. -/
abbrev opsE : List (HloOp τ sig (Elt F)) := takeOps (.of main_arg3) (.of main_v25) main_call4

/-- The first table's entry times the point's factor, plus the second table's entry. -/
abbrev opsF : List (HloOp τ sig (Elt F)) :=
  [ binary main_v26 main_arg1 main_v28 (mulf : (⟨S16777216, .f32⟩ : BufTy).Contents (Elt F) → (⟨S16777216, .f32⟩ : BufTy).Contents (Elt F) → (⟨S16777216, .f32⟩ : BufTy).Contents (Elt F)),
    binary main_v28 main_v27 main_v29 (addf : (⟨S16777216, .f32⟩ : BufTy).Contents (Elt F) → (⟨S16777216, .f32⟩ : BufTy).Contents (Elt F) → (⟨S16777216, .f32⟩ : BufTy).Contents (Elt F)) ]

/-- @main's operations, in order. -/
abbrev ops : List (HloOp τ sig (Elt F)) := opsA ++ (opsB ++ (opsC ++ (opsD ++ (opsE ++ opsF))))

end Cert.ReferenceIdeal.RefValue

end
-- ==== Proof.RefRun.lean ====
/-
  The run of the reference program: @main is the straight line of its operations, every operation touches
  TensorCore buffers only and determines its results, so every weakly fair execution terminates with each buffer at
  the fold of the operations over the launch contents.
-/
import proofs.«149824_j24893630447776_1_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- One call of the clamp is the straight line of its six operations. -/
theorem clip_eq (arg0 : TRef sig ⟨S16777216, .f32⟩) (arg1 arg2 : TRef sig ⟨S_, .i32⟩) (φ : fn_clip.Bufs) :
    fn_clip.body (F := F) arg0 arg1 arg2 φ = seq (clipOps arg0 arg1 arg2 φ) := rfl

/-- One call of the remainder is the straight line of its operations, the select it calls written in its place. -/
theorem remainder_eq (arg0 : TRef sig ⟨S16777216, .i32⟩) (arg1 : TRef sig ⟨S_, .i32⟩) (φ : fn_remainder.Bufs) :
    fn_remainder.body (F := F) arg0 arg1 φ = seq (remainderOps arg0 arg1 φ) := by
  simp only [fn_remainder.body, fn_where.body, seq, bind_assoc, pure_bind]

/-- One call of the look-up is the straight line of its operations, the select it calls written in its place. -/
theorem take_eq (arg0 : TRef sig ⟨S1048576, .f32⟩) (arg1 : TRef sig ⟨S16777216, .i32⟩) (φ : fn_take.Bufs) :
    fn_take.body (F := F) arg0 arg1 φ = seq (takeOps arg0 arg1 φ) := by
  simp only [fn_take.body, fn_where_0.body, seq, bind_assoc, pure_bind]

/-- A step followed by a line is the line with the step in front. -/
theorem seq_cons_eq (op : HloOp τ sig (Elt F)) (l : List (HloOp τ sig (Elt F))) :
    ((hlo rfl op fun _ => .ret (⟨⟩ : PUnit)) >>= fun _ =>
      (seq l : Prog (TpuEff nD τ sig (Elt F) (Pipeline.Sig Λ₀ (Fin 0) fun p => (pcfgs (F := F) p).Adm) .tc) PUnit))
      = seq (op :: l) := rfl

/-- The return is the empty line. -/
theorem seq_nil_eq :
    (pure ⟨⟩ : Prog (TpuEff nD τ sig (Elt F) (Pipeline.Sig Λ₀ (Fin 0) fun p => (pcfgs (F := F) p).Adm) .tc) PUnit) = seq [] := rfl

/-- A line followed by a line is their concatenation. -/
theorem seq_app_eq (l₁ l₂ : List (HloOp τ sig (Elt F))) :
    ((seq l₁ : Prog (TpuEff nD τ sig (Elt F) (Pipeline.Sig Λ₀ (Fin 0) fun p => (pcfgs (F := F) p).Adm) .tc) PUnit) >>= fun _ => seq l₂)
      = seq (l₁ ++ l₂) := (seq_append l₁ l₂).symm

set_option maxRecDepth 8192 in
set_option maxHeartbeats 800000 in
/-- @main is that straight line: read from its end, each step joins the line after it, each call is its own line
    joined to the line after it, and the two lists of operations are the same list. -/
theorem main_eq (c : Dev nD) : main (F := F) c = seq ops := by
  unfold main
  simp only [clip_eq, remainder_eq, take_eq, seq_nil_eq, seq_cons_eq, seq_app_eq]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  · exact h₁ x h
  · exact h₂ x h

theorem clip_sub (arg0 : TRef sig ⟨S16777216, .f32⟩) (arg1 arg2 : TRef sig ⟨S_, .i32⟩) (φ : fn_clip.Bufs) :
    (clipOps (F := F) arg0 arg1 arg2 φ).Forall fun op => op.bufs ⊆ tcRefs τ sig :=
  ⟨unary_bufs_sub .., unary_bufs_sub .., binary_bufs_sub .., unary_bufs_sub .., unary_bufs_sub .., binary_bufs_sub ..⟩

theorem remainder_sub (arg0 : TRef sig ⟨S16777216, .i32⟩) (arg1 : TRef sig ⟨S_, .i32⟩) (φ : fn_remainder.Bufs) :
    (remainderOps (F := F) arg0 arg1 φ).Forall fun op => op.bufs ⊆ tcRefs τ sig :=
  ⟨unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩

theorem take_sub (arg0 : TRef sig ⟨S1048576, .f32⟩) (arg1 : TRef sig ⟨S16777216, .i32⟩) (φ : fn_take.Bufs) :
    (takeOps (F := F) arg0 arg1 φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

theorem opsA_sub : (opsA : List (HloOp τ sig (Elt F))).Forall fun op => op.bufs ⊆ tcRefs τ sig :=
  forall_append (forall_append
    ⟨unary_bufs_sub .., reshape_bufs_sub .., nullary_bufs_sub .., unary_bufs_sub .., binary_bufs_sub .., nullary_bufs_sub ..,
      unary_bufs_sub .., binary_bufs_sub .., nullary_bufs_sub .., unary_bufs_sub .., binary_bufs_sub .., unary_bufs_sub ..,
      nullary_bufs_sub .., nullary_bufs_sub ..⟩ (clip_sub ..)) (unary_bufs_sub ..)

theorem opsB_sub : (opsB : List (HloOp τ sig (Elt F))).Forall fun op => op.bufs ⊆ tcRefs τ sig :=
  forall_append (forall_append
    ⟨unary_bufs_sub .., reshape_bufs_sub .., nullary_bufs_sub .., unary_bufs_sub .., binary_bufs_sub .., nullary_bufs_sub ..,
      unary_bufs_sub .., binary_bufs_sub .., nullary_bufs_sub .., unary_bufs_sub .., binary_bufs_sub .., unary_bufs_sub ..,
      nullary_bufs_sub .., nullary_bufs_sub ..⟩ (clip_sub ..)) (unary_bufs_sub ..)

theorem opsC_sub : (opsC : List (HloOp τ sig (Elt F))).Forall fun op => op.bufs ⊆ tcRefs τ sig :=
  forall_append
    ⟨nullary_bufs_sub .., unary_bufs_sub .., binary_bufs_sub .., binary_bufs_sub .., nullary_bufs_sub ..⟩ (remainder_sub ..)

theorem opsF_sub : (opsF : List (HloOp τ sig (Elt F))).Forall fun op => op.bufs ⊆ tcRefs τ sig :=
  ⟨binary_bufs_sub .., binary_bufs_sub ..⟩

theorem ops_sub : (ops : List (HloOp τ sig (Elt F))).Forall fun op => op.bufs ⊆ tcRefs τ sig :=
  forall_append opsA_sub (forall_append opsB_sub (forall_append opsC_sub (forall_append (take_sub ..)
    (forall_append (take_sub ..) opsF_sub))))

/-- Every operation of the line determines its results. -/
theorem ops_fresh : ∀ op ∈ (ops : List (HloOp τ sig (Elt F))), op.fresh = ∅ := by
  intro _ h
  repeat (cases h with | head => rfl | tail _ h => ?_)
  exact nomatch h

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefTerm.lean ====
/-
  The reference program's result as one pure term of its four argument arrays, stage by stage.

  Each coordinate column of the point array is scaled (`(p − 0) / 1 · 1024`), rounded down, clamped between the integer
  bounds 0 and 1023 read as floats, and read as an integer; the two cell numbers are packed as
  `cell₀ · 1024 + cell₁`; the packed word's remainder by `2^20` takes the divisor's sign; each table is looked up at
  that position (a negative position moved up by the table length, an out-of-range position answered by a fill
  value); the result is `w' · x + b'`.
-/
import proofs.«149824_j24893630447776_1_alg».proof.Proof.Gen.ReferenceIdeal
import Idealize.ShloMosaic.PureOps.Ideal

noncomputable section

namespace Cert.ReferenceIdeal.RefTerm

open Cert.ReferenceIdeal Cert.ReferenceIdeal.Gen Idealize.ShloMosaic

/-- The clamp between two integer bounds read as floats: `min hi (max lo v)`. -/
def clipTerm (v : FVec Ideal S16777216 .f32) (lo hi : IVec S_ 32) : FVec Ideal S16777216 .f32 :=
  minimumf (broadcastInDim S16777216 ![] bcast_S_S16777216 (sitofp (F := Ideal) .f32 hi))
    (maximumf (broadcastInDim S16777216 ![] bcast_S_S16777216 (sitofp (F := Ideal) .f32 lo)) v)

/-- The divisor the remainder really divides by: `1` in place of `0`. -/
def safeDiv (d : IVec S_ 32) : IVec S_ 32 :=
  select (cmpi .eq (id d) (constantI S_ 32 0#32)) (constantI S_ 32 1#32) (id d)

/-- The truncated remainder of every entry by the divisor. -/
def truncRem (t : IVec S16777216 32) (d : IVec S_ 32) : IVec S16777216 32 :=
  Host.remsi t (broadcastInDim S16777216 ![] bcast_S_S16777216 (safeDiv d))

/-- The remainder with the divisor's sign: the truncated remainder, moved by one divisor where it is not zero and
    its sign differs from the divisor's. -/
def remTerm (t : IVec S16777216 32) (d : IVec S_ 32) : IVec S16777216 32 :=
  select
    (andi
      (cmpi .ne
        (cmpi .slt (truncRem t d) (broadcastInDim S16777216 ![] bcast_S_S16777216 (constantI S_ 32 0#32)))
        (broadcastInDim S16777216 ![] bcast_S_S16777216 (cmpi .slt (safeDiv d) (constantI S_ 32 0#32))))
      (cmpi .ne (truncRem t d) (broadcastInDim S16777216 ![] bcast_S_S16777216 (constantI S_ 32 0#32))))
    (addi (truncRem t d) (broadcastInDim S16777216 ![] bcast_S_S16777216 (safeDiv d)))
    (truncRem t d)

/-- The start indices of a look-up: a negative position moved up by the table length, each an index vector of
    length one. -/
def takeStarts (idx : IVec S16777216 32) : IVec S16777216x1 32 :=
  broadcastInDim S16777216x1 ![0] bcast_S16777216_S16777216x1_0
    (select (cmpi .slt idx (broadcastInDim S16777216 ![] bcast_S_S16777216 (constantI S_ 32 0#32)))
      (addi idx (broadcastInDim S16777216 ![] bcast_S_S16777216 (constantI S_ 32 1048576#32))) idx)

/-- Which positions are inside the table: `0 ≤ position ≤ 2^20 − 1`, all components of the index vector. -/
def takeMask (idx : IVec S16777216 32) : IVec S16777216 1 :=
  Host.reduce IntOp.andi
    (andi
      (cmpi .sge (takeStarts idx) (broadcastInDim S16777216x1 ![] bcast_S_S16777216x1 (constantI S_ 32 0#32)))
      (cmpi .sle (takeStarts idx)
        (broadcastInDim S16777216x1 ![0, 1] bcast_S1x1_S16777216x1_0_1
          (broadcastInDim S1x1 ![1] bcast_S1_S1x1_1 (constantI S1 32 1048575#32)))))
    (constantI S_ 1 1#1) reducesTo_S16777216x1_S16777216_d1 h_S_

/-- The look-up: the table at the positions inside it, a fill value elsewhere. -/
def takeTerm (tbl : FVec Ideal S1048576 .f32) (idx : IVec S16777216 32) : FVec Ideal S16777216 .f32 :=
  select (takeMask idx)
    (Host.gather gather_S1048576_S16777216x1_S16777216_n_0_n_n_0_1_1 tbl (takeStarts idx))
    (broadcastInDim S16777216 ![] bcast_S_S16777216 (constant (F := Ideal) S_ .f32 0x7FC00000#32))

/-- The cell numbers along one axis, from the column of the point array at offset `off`. -/
def cellArr (off : Fin 2 → Nat) (h : S16777216x2.Slices off S16777216x1) (inp : FVec Ideal S16777216x2 .f32) :
    IVec S16777216 32 :=
  fptosi 32
    (clipTerm
      (Host.floor (F := Ideal)
        (mulf
          (Host.divf (F := Ideal)
            (subf (shapeCast S16777216 (extractStridedSlice S16777216x1 off inp h) shapeCasts_S16777216x1_S16777216)
              (broadcastInDim S16777216 ![] bcast_S_S16777216 (constant (F := Ideal) S_ .f32 0x00000000#32)))
            (broadcastInDim S16777216 ![] bcast_S_S16777216 (constant (F := Ideal) S_ .f32 0x3F800000#32)))
          (broadcastInDim S16777216 ![] bcast_S_S16777216 (constant (F := Ideal) S_ .f32 0x44800000#32))))
      (constantI S_ 32 0#32) (constantI S_ 32 1023#32))

/-- The table position of every point. -/
def slotTerm (inp : FVec Ideal S16777216x2 .f32) : IVec S16777216 32 :=
  remTerm
    (addi
      (muli (cellArr ![0, 0] slices_S16777216x2_S16777216x1_0_0 inp)
        (broadcastInDim S16777216 ![] bcast_S_S16777216 (constantI S_ 32 1024#32)))
      (cellArr ![0, 1] slices_S16777216x2_S16777216x1_0_1 inp))
    (constantI S_ 32 1048576#32)

/-- The reference's result array. -/
def refTerm (inp : FVec Ideal S16777216x2 .f32) (x : FVec Ideal S16777216 .f32) (w b : FVec Ideal S1048576 .f32) :
    FVec Ideal S16777216 .f32 :=
  addf (mulf (takeTerm w (slotTerm inp)) x) (takeTerm b (slotTerm inp))

end Cert.ReferenceIdeal.RefTerm

end
-- ==== Proof.RefPiecesAB.lean ====
/-
  The reference's line of operations, first, second and last pieces: after the first the buffer of the first
  coordinate's cell numbers holds that stage of the reference's term, after the second the second coordinate's, after
  the last the result buffer holds the multiply-add of the two looked-up tables; each piece leaves the buffers a later
  piece reads as they were.
-/
import proofs.«149824_j24893630447776_1_alg».proof.Proof.RefOps
import proofs.«149824_j24893630447776_1_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefTerm

/-- Spells a piece's operations out as a literal list, then rewrites each operation's result at its own buffer to
    its function's value and at any other buffer to what was there. -/
local macro "read_piece" : tactic =>
  `(tactic| (simp only [opsA, opsB, opsF, clipOps, List.cons_append, List.nil_append]
             after_results_simp))

/-! ## First piece: the cell numbers along the first axis -/

theorem A_v10 (W : Valuation τ sig (Elt Ideal)) :
    after (opsA (F := Ideal)) W (main_v10 : DevRef τ sig)
      = cellArr ![0, 0] slices_S16777216x2_S16777216x1_0_0 (W (main_arg0 : DevRef τ sig)) := by
  read_piece
  rfl

theorem A_arg0 (W : Valuation τ sig (Elt Ideal)) :
    after (opsA (F := Ideal)) W (main_arg0 : DevRef τ sig) = W (main_arg0 : DevRef τ sig) := by read_piece
theorem A_arg1 (W : Valuation τ sig (Elt Ideal)) :
    after (opsA (F := Ideal)) W (main_arg1 : DevRef τ sig) = W (main_arg1 : DevRef τ sig) := by read_piece
theorem A_arg2 (W : Valuation τ sig (Elt Ideal)) :
    after (opsA (F := Ideal)) W (main_arg2 : DevRef τ sig) = W (main_arg2 : DevRef τ sig) := by read_piece
theorem A_arg3 (W : Valuation τ sig (Elt Ideal)) :
    after (opsA (F := Ideal)) W (main_arg3 : DevRef τ sig) = W (main_arg3 : DevRef τ sig) := by read_piece

/-! ## Second piece: the cell numbers along the second axis -/

theorem B_v21 (W : Valuation τ sig (Elt Ideal)) :
    after (opsB (F := Ideal)) W (main_v21 : DevRef τ sig)
      = cellArr ![0, 1] slices_S16777216x2_S16777216x1_0_1 (W (main_arg0 : DevRef τ sig)) := by
  read_piece
  rfl

theorem B_v10 (W : Valuation τ sig (Elt Ideal)) :
    after (opsB (F := Ideal)) W (main_v10 : DevRef τ sig) = W (main_v10 : DevRef τ sig) := by read_piece
theorem B_arg0 (W : Valuation τ sig (Elt Ideal)) :
    after (opsB (F := Ideal)) W (main_arg0 : DevRef τ sig) = W (main_arg0 : DevRef τ sig) := by read_piece
theorem B_arg1 (W : Valuation τ sig (Elt Ideal)) :
    after (opsB (F := Ideal)) W (main_arg1 : DevRef τ sig) = W (main_arg1 : DevRef τ sig) := by read_piece
theorem B_arg2 (W : Valuation τ sig (Elt Ideal)) :
    after (opsB (F := Ideal)) W (main_arg2 : DevRef τ sig) = W (main_arg2 : DevRef τ sig) := by read_piece
theorem B_arg3 (W : Valuation τ sig (Elt Ideal)) :
    after (opsB (F := Ideal)) W (main_arg3 : DevRef τ sig) = W (main_arg3 : DevRef τ sig) := by read_piece

/-! ## Last piece: the multiply-add -/

theorem F_v29 (W : Valuation τ sig (Elt Ideal)) :
    after (opsF (F := Ideal)) W (main_v29 : DevRef τ sig)
      = (addf (mulf (W (main_v26 : DevRef τ sig) : FVec Ideal S16777216 .f32) (W (main_arg1 : DevRef τ sig)))
          (W (main_v27 : DevRef τ sig)) : FVec Ideal S16777216 .f32) := by
  read_piece

theorem F_arg0 (W : Valuation τ sig (Elt Ideal)) :
    after (opsF (F := Ideal)) W (main_arg0 : DevRef τ sig) = W (main_arg0 : DevRef τ sig) := by read_piece
theorem F_arg1 (W : Valuation τ sig (Elt Ideal)) :
    after (opsF (F := Ideal)) W (main_arg1 : DevRef τ sig) = W (main_arg1 : DevRef τ sig) := by read_piece
theorem F_arg2 (W : Valuation τ sig (Elt Ideal)) :
    after (opsF (F := Ideal)) W (main_arg2 : DevRef τ sig) = W (main_arg2 : DevRef τ sig) := by read_piece
theorem F_arg3 (W : Valuation τ sig (Elt Ideal)) :
    after (opsF (F := Ideal)) W (main_arg3 : DevRef τ sig) = W (main_arg3 : DevRef τ sig) := by read_piece

end Cert.ReferenceIdeal.RefValue

end
-- ==== Proof.RefPiecesC.lean ====
/-
  The reference's line of operations, third piece: the two cell numbers packed into one word and the word's
  remainder by 2^20. After it the remainder's buffer holds that stage of the reference's term of the two cell-number
  buffers, and the arguments are as they were.
-/
import proofs.«149824_j24893630447776_1_alg».proof.Proof.RefOps
import proofs.«149824_j24893630447776_1_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefTerm

/-- Spells the piece's operations out as a literal list, then rewrites each operation's result at its own buffer to
    its function's value and at any other buffer to what was there. -/
local macro "read_piece" : tactic =>
  `(tactic| (simp only [opsC, remainderOps, List.cons_append, List.nil_append]
             after_results_simp))

theorem C_v25 (W : Valuation τ sig (Elt Ideal)) :
    after (opsC (F := Ideal)) W (main_v25 : DevRef τ sig)
      = remTerm
          (addi
            (muli (W (main_v10 : DevRef τ sig) : IVec S16777216 32)
              (broadcastInDim S16777216 ![] bcast_S_S16777216 (constantI S_ 32 1024#32)))
            (W (main_v21 : DevRef τ sig) : IVec S16777216 32))
          (constantI S_ 32 1048576#32) := by
  read_piece
  rfl

theorem C_arg0 (W : Valuation τ sig (Elt Ideal)) :
    after (opsC (F := Ideal)) W (main_arg0 : DevRef τ sig) = W (main_arg0 : DevRef τ sig) := by read_piece
theorem C_arg1 (W : Valuation τ sig (Elt Ideal)) :
    after (opsC (F := Ideal)) W (main_arg1 : DevRef τ sig) = W (main_arg1 : DevRef τ sig) := by read_piece
theorem C_arg2 (W : Valuation τ sig (Elt Ideal)) :
    after (opsC (F := Ideal)) W (main_arg2 : DevRef τ sig) = W (main_arg2 : DevRef τ sig) := by read_piece
theorem C_arg3 (W : Valuation τ sig (Elt Ideal)) :
    after (opsC (F := Ideal)) W (main_arg3 : DevRef τ sig) = W (main_arg3 : DevRef τ sig) := by read_piece

end Cert.ReferenceIdeal.RefValue

end
-- ==== Proof.RefPiecesDE.lean ====
/-
  The reference's line of operations, fourth and fifth pieces: the two table look-ups. After each, the look-up's
  buffer holds that stage of the reference's term of the table and of the position buffer, and the position buffer,
  the earlier look-up and the arguments are as they were.
-/
import proofs.«149824_j24893630447776_1_alg».proof.Proof.RefOps
import proofs.«149824_j24893630447776_1_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefTerm

/-- Spells a piece's operations out as a literal list, then rewrites each operation's result at its own buffer to
    its function's value and at any other buffer to what was there. -/
local macro "read_piece" : tactic =>
  `(tactic| (simp only [opsD, opsE, takeOps, List.cons_append, List.nil_append]
             after_results_simp))

/-! ## Fourth piece: the look-up in the first table

The reduction over the unit axis and the gather are folds and searches over the whole array: while the two sides are
compared they stand as two unknown functions, so that the comparison never looks inside them. -/

theorem D_v26 (W : Valuation τ sig (Elt Ideal)) :
    after (opsD (F := Ideal)) W (main_v26 : DevRef τ sig)
      = takeTerm (W (main_arg2 : DevRef τ sig)) (W (main_v25 : DevRef τ sig) : IVec S16777216 32) := by
  obtain ⟨R, hR⟩ : ∃ R : IVec S16777216x1 1 → IVec S_ 1 → IVec S16777216 1,
      ∀ x v, Host.reduce IntOp.andi x v reducesTo_S16777216x1_S16777216_d1 h_S_ = R x v := ⟨_, fun _ _ => rfl⟩
  obtain ⟨G, hG⟩ : ∃ G : FVec Ideal S1048576 .f32 → IVec S16777216x1 32 → FVec Ideal S16777216 .f32,
      ∀ x i, Host.gather gather_S1048576_S16777216x1_S16777216_n_0_n_n_0_1_1 x i = G x i := ⟨_, fun _ _ => rfl⟩
  simp only [opsD, takeOps, takeTerm, takeMask, takeStarts, hR, hG]
  after_results_simp
  rfl

theorem D_v25 (W : Valuation τ sig (Elt Ideal)) :
    after (opsD (F := Ideal)) W (main_v25 : DevRef τ sig) = W (main_v25 : DevRef τ sig) := by read_piece
theorem D_arg0 (W : Valuation τ sig (Elt Ideal)) :
    after (opsD (F := Ideal)) W (main_arg0 : DevRef τ sig) = W (main_arg0 : DevRef τ sig) := by read_piece
theorem D_arg1 (W : Valuation τ sig (Elt Ideal)) :
    after (opsD (F := Ideal)) W (main_arg1 : DevRef τ sig) = W (main_arg1 : DevRef τ sig) := by read_piece
theorem D_arg2 (W : Valuation τ sig (Elt Ideal)) :
    after (opsD (F := Ideal)) W (main_arg2 : DevRef τ sig) = W (main_arg2 : DevRef τ sig) := by read_piece
theorem D_arg3 (W : Valuation τ sig (Elt Ideal)) :
    after (opsD (F := Ideal)) W (main_arg3 : DevRef τ sig) = W (main_arg3 : DevRef τ sig) := by read_piece

/-! ## Fifth piece: the look-up in the second table -/

theorem E_v27 (W : Valuation τ sig (Elt Ideal)) :
    after (opsE (F := Ideal)) W (main_v27 : DevRef τ sig)
      = takeTerm (W (main_arg3 : DevRef τ sig)) (W (main_v25 : DevRef τ sig) : IVec S16777216 32) := by
  obtain ⟨R, hR⟩ : ∃ R : IVec S16777216x1 1 → IVec S_ 1 → IVec S16777216 1,
      ∀ x v, Host.reduce IntOp.andi x v reducesTo_S16777216x1_S16777216_d1 h_S_ = R x v := ⟨_, fun _ _ => rfl⟩
  obtain ⟨G, hG⟩ : ∃ G : FVec Ideal S1048576 .f32 → IVec S16777216x1 32 → FVec Ideal S16777216 .f32,
      ∀ x i, Host.gather gather_S1048576_S16777216x1_S16777216_n_0_n_n_0_1_1 x i = G x i := ⟨_, fun _ _ => rfl⟩
  simp only [opsE, takeOps, takeTerm, takeMask, takeStarts, hR, hG]
  after_results_simp
  rfl

theorem E_v26 (W : Valuation τ sig (Elt Ideal)) :
    after (opsE (F := Ideal)) W (main_v26 : DevRef τ sig) = W (main_v26 : DevRef τ sig) := by read_piece
theorem E_arg0 (W : Valuation τ sig (Elt Ideal)) :
    after (opsE (F := Ideal)) W (main_arg0 : DevRef τ sig) = W (main_arg0 : DevRef τ sig) := by read_piece
theorem E_arg1 (W : Valuation τ sig (Elt Ideal)) :
    after (opsE (F := Ideal)) W (main_arg1 : DevRef τ sig) = W (main_arg1 : DevRef τ sig) := by read_piece
theorem E_arg2 (W : Valuation τ sig (Elt Ideal)) :
    after (opsE (F := Ideal)) W (main_arg2 : DevRef τ sig) = W (main_arg2 : DevRef τ sig) := by read_piece
theorem E_arg3 (W : Valuation τ sig (Elt Ideal)) :
    after (opsE (F := Ideal)) W (main_arg3 : DevRef τ sig) = W (main_arg3 : DevRef τ sig) := by read_piece

end Cert.ReferenceIdeal.RefValue

end
-- ==== Proof.RefRead.lean ====
/-
  The reference program's result read back as one pure term of the four argument arrays.

  The line of operations is six consecutive pieces. After each piece, the buffer that piece computes holds a named
  stage of the term (the cell numbers along an axis, the table position, a table look-up, the multiply-add) of the
  contents the piece started from, and every buffer a later piece still reads is unchanged. Chaining the six facts
  gives the result buffer at the whole term of the launch contents, and the arguments unchanged.
-/
import proofs.«149824_j24893630447776_1_alg».proof.Proof.RefRun
import proofs.«149824_j24893630447776_1_alg».proof.Proof.RefTerm
import proofs.«149824_j24893630447776_1_alg».proof.Proof.RefPiecesAB
import proofs.«149824_j24893630447776_1_alg».proof.Proof.RefPiecesC
import proofs.«149824_j24893630447776_1_alg».proof.Proof.RefPiecesDE
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefTerm

/-- The whole line is the six pieces one after the other. -/
theorem after_ops (W : Valuation τ sig (Elt Ideal)) :
    after (ops (F := Ideal)) W
      = after opsF (after opsE (after opsD (after opsC (after opsB (after (opsA (F := Ideal)) W))))) := by
  show after (opsA ++ (opsB ++ (opsC ++ (opsD ++ (opsE ++ opsF))))) W = _
  rw [StableHlo.after_append opsA, StableHlo.after_append opsB, StableHlo.after_append opsC,
    StableHlo.after_append opsD, StableHlo.after_append opsE]

/-- The result buffer after the whole line: the reference's term of the launch contents of the four arguments. -/
theorem out_eq (W : Valuation τ sig (Elt Ideal)) :
    after (ops (F := Ideal)) W (main_v29 : DevRef τ sig)
      = refTerm (W (main_arg0 : DevRef τ sig)) (W (main_arg1 : DevRef τ sig)) (W (main_arg2 : DevRef τ sig))
          (W (main_arg3 : DevRef τ sig)) := by
  rw [after_ops, F_v29, E_v27, E_v26, E_arg1, D_v26, D_v25, D_arg1, D_arg3, C_v25, C_arg1, C_arg2, C_arg3,
    B_v21, B_v10, B_arg1, B_arg2, B_arg3, A_v10, A_arg0, A_arg1, A_arg2, A_arg3]
  rfl

theorem arg0_eq (W : Valuation τ sig (Elt Ideal)) :
    after (ops (F := Ideal)) W (main_arg0 : DevRef τ sig) = W (main_arg0 : DevRef τ sig) := by
  rw [after_ops, F_arg0, E_arg0, D_arg0, C_arg0, B_arg0, A_arg0]
theorem arg1_eq (W : Valuation τ sig (Elt Ideal)) :
    after (ops (F := Ideal)) W (main_arg1 : DevRef τ sig) = W (main_arg1 : DevRef τ sig) := by
  rw [after_ops, F_arg1, E_arg1, D_arg1, C_arg1, B_arg1, A_arg1]
theorem arg2_eq (W : Valuation τ sig (Elt Ideal)) :
    after (ops (F := Ideal)) W (main_arg2 : DevRef τ sig) = W (main_arg2 : DevRef τ sig) := by
  rw [after_ops, F_arg2, E_arg2, D_arg2, C_arg2, B_arg2, A_arg2]
theorem arg3_eq (W : Valuation τ sig (Elt Ideal)) :
    after (ops (F := Ideal)) W (main_arg3 : DevRef τ sig) = W (main_arg3 : DevRef τ sig) := by
  rw [after_ops, F_arg3, E_arg3, D_arg3, C_arg3, B_arg3, A_arg3]

/-- At the ideal instance, from any memory with zero counters: every weakly fair execution of @main terminates with
    the result buffer at the reference's term of the arguments' launch contents, and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v29).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m ρ)

end Cert.ReferenceIdeal.RefValue

end
-- ==== Proof.RefCells.lean ====
/-
  The reference's scaled coordinate, entry by entry. Entry `e` of a column of the point array, cast flat, is the
  point's coordinate; `(p − 0) / 1 · 1024` rounded down is `p · 1024` rounded down on every extended real, the host's
  rounding being the same function as the kernel's.
-/
import proofs.«149824_j24893630447776_1_alg».proof.Proof.RefTerm
import proofs.«149824_j24893630447776_1_alg».proof.Proof.LibWords
import Idealize.ShloMosaic.Lib.Pipeline.Value
import Idealize.ShloMosaic.Lib.ValueIdx

noncomputable section

namespace Cert.ReferenceIdeal.RefIndex

open Cert.ReferenceIdeal Cert.ReferenceIdeal.Gen Cert.ReferenceIdeal.RefTerm Idealize.ShloMosaic Idealize.ShloMosaic.ValueIdx

/-- Column `q` of the point array, cast flat, read at `e`: coordinate `q` of point `e`. -/
theorem col_apply (q : Fin 2) (h : S16777216x2.Slices ![0, q.val] S16777216x1) (inp : FVec Ideal S16777216x2 .f32)
    (e : Fin 16777216) :
    shapeCast S16777216 (extractStridedSlice S16777216x1 ![0, q.val] inp h) shapeCasts_S16777216x1_S16777216 (ix1 e)
      = inp (ix2 e q) := by
  refine (shapeCast_apply _ _ (ix1 e) (ix2 e (0 : Fin 1)) (by
    rw [Shape.rowMajor_val_one, Shape.rowMajor_val_two]; show e.val * 1 + 0 = e.val; omega)).trans ?_
  refine extractStridedSlice_apply _ _ _ _ (ix2 e q) ?_
  intro a
  match a with
  | ⟨0, _⟩ => show e.val = 0 + e.val; omega
  | ⟨1, _⟩ => show q.val = q.val + 0; omega

/-- The scaled and rounded coordinate, entry by entry. -/
theorem scaled_apply (p : FVec Ideal S16777216 .f32) (i : S16777216.Idx) :
    Host.floor (F := Ideal)
        (mulf
          (Host.divf (F := Ideal)
            (subf p (broadcastInDim S16777216 ![] bcast_S_S16777216 (constant (F := Ideal) S_ .f32 0x00000000#32)))
            (broadcastInDim S16777216 ![] bcast_S_S16777216 (constant (F := Ideal) S_ .f32 0x3F800000#32)))
          (broadcastInDim S16777216 ![] bcast_S_S16777216 (constant (F := Ideal) S_ .f32 0x44800000#32))) i
      = FloatOps.floor (FloatOps.mulf (p i) (Scalar.ofBits (F := Ideal) .f32 0x44800000#32)) := by
  show FloatOps.hostUnary .floor
      (FloatOps.mulf
        (FloatOps.hostDivf (FloatOps.subf (p i) (FloatOps.ofBits (F := Ideal) .f32 0x00000000#32))
          (FloatOps.ofBits (F := Ideal) .f32 0x3F800000#32))
        (FloatOps.ofBits (F := Ideal) .f32 0x44800000#32)) = _
  rw [Cert.Lib.Words.hostDivf_subf, Cert.Lib.Words.hostUnary_floor]

end Cert.ReferenceIdeal.RefIndex

end
-- ==== Proof.LibGatherRows.lean ====
/-
  A gather of whole rows, and of single entries, by one start index per row of the index array, read at an index.

  `x[idx]` for a matrix `x : [N, D]` and an integer vector `idx : [E]` lowers to a gather whose start indices are the
  column `[E, 1]`: offset axis `1`, collapsed axis `0`, start index map `[0]`, index vector axis `1`, slice sizes
  `[1, D]`. Its element `(e, d)` is `x (r, d)` where `r` is the start index `idx (e, 0)` read as a signed integer and
  clamped into `[0, N − 1]`. The same with a vector `x : [N]` (no offset axis, slice sizes `[1]`): element `e` is `x r`
  for the SAME `r`. So two such gathers by one index array pick the same row, whatever the operands are.
-/
import Idealize.ShloMosaic.PureOps.ShapeOps
import Idealize.ShloMosaic.Lib.ValueIdx

namespace Cert.Lib.GatherRows

open Idealize.ShloMosaic Idealize.ShloMosaic.ValueIdx

variable {α : Type}

/-- The row a start index selects among `N`: the word read signed, negative values to `0`, clamped to `N − 1`. -/
def rowOf (N : Nat) (hN : 0 < N) {E w : Nat} (idx : IVec ⟨2, ![E, 1]⟩ w) (e : Fin E) : Fin N :=
  ⟨min (idx (ix2 e (0 : Fin 1))).toInt.toNat (N - 1), by omega⟩

/-- The dimension numbers of a row gather: operand `[N, D]`, start indices `[E, 1]`, result `[E, D]`. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of an entry gather: operand `[N]`, start indices `[E, 1]`, result `[E]`. -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A row gather at `(e, d)` is the operand at `(rowOf e, d)`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowsDims N D E wf) x idx (ix2 e d) = x (ix2 (rowOf N hN idx e) d) := by
  -- axis 0: the clamped start index, no batch and no offset coordinate
  have h0 : (rowsDims N D E wf).start (ix2 e d) idx (0 : Fin 2) + (rowsDims N D E wf).batchCoord (ix2 e d) (0 : Fin 2)
      + (rowsDims N D E wf).offCoord (ix2 e d) (0 : Fin 2) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e d) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1: no start index, no batch coordinate, the result's own coordinate as the offset
  have h1 : (rowsDims N D E wf).start (ix2 e d) idx (1 : Fin 2) + (rowsDims N D E wf).batchCoord (ix2 e d) (1 : Fin 2)
      + (rowsDims N D E wf).offCoord (ix2 e d) (1 : Fin 2) = d.val := by
    have hn : (1 : Fin 2) ∉ (rowsDims N D E wf).startIndexMap :=
      show (1 : Fin 2) ∉ ([0] : List (Fin 2)) by decide
    have hk : (1 : Fin 2) ∈ (rowsDims N D E wf).sKept :=
      (GatherDims.mem_sKept _ _).mpr ⟨show (1 : Fin 2) ∉ ([0] : List (Fin 2)) by decide, List.not_mem_nil⟩
    rw [GatherDims.batchCoord_eq_zero _ _ _ List.not_mem_nil]
    unfold GatherDims.start GatherDims.offCoord
    rw [dif_neg hn, dif_pos hk]
    simp only [Nat.zero_add, Nat.add_zero]
    rfl
  unfold Host.gather
  congr 1
  funext a
  refine Fin.ext ?_
  match a with
  | ⟨0, _⟩ => exact h0
  | ⟨1, _⟩ => exact h1

/-- An entry gather at `e` is the operand at `rowOf e`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (rowOf N hN idx e)) := by
  have h0 : (entriesDims N E wf).start (ix1 e) idx (0 : Fin 1) + (entriesDims N E wf).batchCoord (ix1 e) (0 : Fin 1)
      + (entriesDims N E wf).offCoord (ix1 e) (0 : Fin 1) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N E wf).startIndexMap from List.mem_singleton.mpr rfl)]
    have hsi : (entriesDims N E wf).siIdx (ix1 e) ⟨List.idxOf (0 : Fin 1) (entriesDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

end Cert.Lib.GatherRows
-- ==== Proof.RefStages.lean ====
/-
  What the three helper functions of the reference program are at an index.

  * The clamp between the integer bounds `0` and `1023` is `min 1023 (max 0 (v e))`, the bounds as float literals.
  * The remainder by `2^20` with the divisor's sign is the low-twenty-bit mask, for every word.
  * The table look-up at a position below `2^20` is the table's entry there: the position is not negative, so it is
    not moved; it is inside the table, so the range mask is on and the clamp of the look-up changes nothing.
-/
import proofs.«149824_j24893630447776_1_alg».proof.Proof.RefTerm
import proofs.«149824_j24893630447776_1_alg».proof.Proof.LibWords
import proofs.«149824_j24893630447776_1_alg».proof.Proof.LibGatherRows
import Idealize.ShloMosaic.Lib.ValueIdx
import Idealize.ShloMosaic.Lib.Pipeline.Value
import Idealize.ShloMosaic.PureOps.Reduce

noncomputable section

namespace Cert.ReferenceIdeal.RefStages

open Cert.ReferenceIdeal Cert.ReferenceIdeal.Gen Cert.ReferenceIdeal.RefTerm Idealize.ShloMosaic
  Idealize.ShloMosaic.ValueIdx Cert.Lib.Words

/-! ## The clamp -/

/-- With the bounds `0` and `1023` the clamp at an index is `min 1023 (max 0 (v e))`, the bounds as float literals. -/
theorem clip_apply (v : FVec Ideal S16777216 .f32) (e : Fin 16777216) :
    clipTerm v (constantI S_ 32 0#32) (constantI S_ 32 1023#32) (ix1 e)
      = FloatOps.minimumf (Scalar.ofBits (F := Ideal) .f32 0x447FC000#32)
          (FloatOps.maximumf (Scalar.ofBits (F := Ideal) .f32 0x00000000#32) (v (ix1 e))) := by
  show FloatOps.minimumf (FloatOps.sitofp (F := Ideal) .f32 (1023#32 : BitVec 32))
      (FloatOps.maximumf (FloatOps.sitofp (F := Ideal) .f32 (0#32 : BitVec 32)) (v (ix1 e))) = _
  rw [sitofp_1023', sitofp_zero']

/-! ## The remainder with the sign of the divisor -/

/-- By `2^20` the remainder with the divisor's sign is the low twenty bits of the word, at every index and for every
    word: the divisor is not zero, so it is divided by as it is; the truncated remainder `r` is moved by `2^20` exactly
    where `r < 0`. -/
theorem rem_apply (t : IVec S16777216 32) (e : Fin 16777216) :
    remTerm t (constantI S_ 32 1048576#32) (ix1 e) = IntOp.andi (t (ix1 e)) 1048575#32 := by
  show Scalar.select
      (IntOp.andi
        (IntOp.cmpi .ne
          (IntOp.cmpi .slt (IntOp.remsi .host (t (ix1 e))
            (Scalar.select (IntOp.cmpi .eq (1048576#32 : BitVec 32) 0#32) (1#32 : BitVec 32) 1048576#32)) 0#32)
          (IntOp.cmpi .slt (Scalar.select (IntOp.cmpi .eq (1048576#32 : BitVec 32) 0#32) (1#32 : BitVec 32) 1048576#32) 0#32))
        (IntOp.cmpi .ne (IntOp.remsi .host (t (ix1 e))
            (Scalar.select (IntOp.cmpi .eq (1048576#32 : BitVec 32) 0#32) (1#32 : BitVec 32) 1048576#32)) 0#32))
      (IntOp.addi (IntOp.remsi .host (t (ix1 e))
            (Scalar.select (IntOp.cmpi .eq (1048576#32 : BitVec 32) 0#32) (1#32 : BitVec 32) 1048576#32))
          (Scalar.select (IntOp.cmpi .eq (1048576#32 : BitVec 32) 0#32) (1#32 : BitVec 32) 1048576#32))
      (IntOp.remsi .host (t (ix1 e))
            (Scalar.select (IntOp.cmpi .eq (1048576#32 : BitVec 32) 0#32) (1#32 : BitVec 32) 1048576#32))
      = _
  rw [divisor_eq]
  exact remsi_fix .host _

/-! ## The table look-up -/

/-- A fold of `and` from `1` over words that are all `1` is `1`. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from rfl]
    exact foldl_andi_one f l fun n hn => h n (List.mem_cons_of_mem _ hn)

/-- The start index at any index of row `e` is the position of point `e` itself, when that is below `2^20`: it is not
    negative, so it is not moved. -/
theorem takeStarts_apply (idx : IVec S16777216 32) (e : Fin 16777216) (h : (idx (ix1 e)).toNat < 1048576)
    (i : S16777216x1.Idx) (hi : (i 0).val = e.val) : takeStarts idx i = idx (ix1 e) := by
  unfold takeStarts
  refine (broadcastInDim_apply _ _ _ i (ix1 e) ?_).trans ?_
  · intro a
    match a with
    | ⟨0, _⟩ => exact hi.symm
  · show Scalar.select (IntOp.cmpi .slt (idx (ix1 e)) 0#32) (IntOp.addi (idx (ix1 e)) 1048576#32) (idx (ix1 e)) = _
    exact select_wrap_of_lt h

/-- At a position below `2^20` the range mask is on: both comparisons hold at the one index of the row. -/
theorem takeMask_apply (idx : IVec S16777216 32) (e : Fin 16777216) (h : (idx (ix1 e)).toNat < 1048576) :
    takeMask idx (ix1 e) = 1#1 := by
  unfold takeMask
  rw [Host.reduce_eq_foldl]
  refine foldl_andi_one _ _ ?_
  intro i hi
  have hd : reducesTo_S16777216x1_S16777216_d1.drop i = ix1 e := by
    simpa using (List.mem_filter.1 hi).2
  have h0 : (i 0).val = e.val := by
    have := Shape.ReducesTo.drop_apply_val_of_eq reducesTo_S16777216x1_S16777216_d1 i (0 : Fin 1) (0 : Fin 2)
    rw [← this, hd]
  show IntOp.andi (IntOp.cmpi .sge (takeStarts idx i) 0#32) (IntOp.cmpi .sle (takeStarts idx i) 1048575#32) = 1#1
  rw [takeStarts_apply idx e h i h0, cmpi_sge_zero h, cmpi_sle_max h]
  rfl

/-- The look-up at a position below `2^20` is the table's entry at that position. -/
theorem take_apply (tbl : FVec Ideal S1048576 .f32) (idx : IVec S16777216 32) (e : Fin 16777216)
    (h : (idx (ix1 e)).toNat < 1048576) :
    takeTerm tbl idx (ix1 e) = tbl (ix1 ⟨(idx (ix1 e)).toNat, h⟩) := by
  unfold takeTerm
  rw [select_apply, takeMask_apply idx e h, select_one]
  refine (Cert.Lib.GatherRows.gather_entries_apply (N := 1048576) (E := 16777216) (by decide)
    gather_S1048576_S16777216x1_S16777216_n_0_n_n_0_1_1_wf tbl (takeStarts idx) e).trans ?_
  refine congrArg (fun k => tbl (ix1 k)) (Fin.ext ?_)
  show min (takeStarts idx (ix2 e (0 : Fin 1))).toInt.toNat (1048576 - 1) = (idx (ix1 e)).toNat
  rw [takeStarts_apply idx e h (ix2 e (0 : Fin 1)) rfl]
  exact min_toInt_toNat_of_lt h

end Cert.ReferenceIdeal.RefStages

end
-- ==== Proof.RefIndex.lean ====
/-
  The reference's result array is the specification's, index by index.

  At point `e` each cell array holds the cell number of the point's coordinate; the packed word's remainder by
  `2^20` with the divisor's sign is its low twenty bits, for every word; that position is below `2^20`, so each
  look-up answers the table's entry there and never the fill value; the result is `w[slot] · x[e] + b[slot]`.
-/
import proofs.«149824_j24893630447776_1_alg».proof.Proof.RefCells
import proofs.«149824_j24893630447776_1_alg».proof.Proof.RefStages
import proofs.«149824_j24893630447776_1_alg».proof.Proof.Spec

noncomputable section

namespace Cert.ReferenceIdeal.RefIndex

open Cert.ReferenceIdeal Cert.ReferenceIdeal.Gen Cert.ReferenceIdeal.RefTerm Cert.ReferenceIdeal.RefStages
open Idealize.ShloMosaic Idealize.ShloMosaic.ValueIdx

/-- A cell array at point `e`: the cell number of the point's coordinate. -/
theorem cellArr_apply (q : Fin 2) (h : S16777216x2.Slices ![0, q.val] S16777216x1) (inp : FVec Ideal S16777216x2 .f32)
    (e : Fin 16777216) :
    cellArr ![0, q.val] h inp (ix1 e) = Cert.QuadSlot.cell (inp (ix2 e q)) := by
  unfold cellArr
  refine (congrArg (FloatOps.fptosi (F := Ideal) 32) (clip_apply _ e)).trans ?_
  rw [scaled_apply, col_apply]
  rfl

theorem cellArr0_apply (h : S16777216x2.Slices ![0, 0] S16777216x1) (inp : FVec Ideal S16777216x2 .f32) (e : Fin 16777216) :
    cellArr ![0, 0] h inp (ix1 e) = Cert.QuadSlot.cell (inp (ix2 e (0 : Fin 2))) := cellArr_apply (0 : Fin 2) h inp e

theorem cellArr1_apply (h : S16777216x2.Slices ![0, 1] S16777216x1) (inp : FVec Ideal S16777216x2 .f32) (e : Fin 16777216) :
    cellArr ![0, 1] h inp (ix1 e) = Cert.QuadSlot.cell (inp (ix2 e (1 : Fin 2))) := cellArr_apply (1 : Fin 2) h inp e

/-- The table position of point `e`. -/
theorem slotTerm_apply (inp : FVec Ideal S16777216x2 .f32) (e : Fin 16777216) :
    slotTerm inp (ix1 e) = Cert.QuadSlot.slot (inp (ix2 e (0 : Fin 2))) (inp (ix2 e (1 : Fin 2))) := by
  unfold slotTerm
  rw [rem_apply]
  show IntOp.andi (IntOp.addi (IntOp.muli (cellArr ![0, 0] slices_S16777216x2_S16777216x1_0_0 inp (ix1 e)) 1024#32)
      (cellArr ![0, 1] slices_S16777216x2_S16777216x1_0_1 inp (ix1 e))) 1048575#32 = _
  rw [cellArr0_apply, cellArr1_apply]
  rfl

/-- A look-up at a position known to be a word below `2^20`: the table's entry there. -/
theorem take_at (tbl : FVec Ideal S1048576 .f32) (idx : IVec S16777216 32) (e : Fin 16777216) (s : BitVec 32)
    (hs : idx (ix1 e) = s) (hlt : s.toNat < 1048576) :
    takeTerm tbl idx (ix1 e) = tbl (ix1 ⟨s.toNat, hlt⟩) := by
  subst hs
  exact take_apply tbl idx e hlt

/-- The reference's result at point `e`. -/
theorem refTerm_apply (inp : FVec Ideal S16777216x2 .f32) (x : FVec Ideal S16777216 .f32) (w b : FVec Ideal S1048576 .f32)
    (e : Fin 16777216) : refTerm inp x w b (ix1 e) = Cert.QuadSlot.val inp x w b e := by
  unfold refTerm
  rw [addf_apply, mulf_apply,
    take_at w _ e _ (slotTerm_apply inp e) (Cert.QuadSlot.slot_lt _ _),
    take_at b _ e _ (slotTerm_apply inp e) (Cert.QuadSlot.slot_lt _ _)]
  rfl

/-- The reference's result array is the specification's. -/
theorem refTerm_eq (inp : FVec Ideal S16777216x2 .f32) (x : FVec Ideal S16777216 .f32) (w b : FVec Ideal S1048576 .f32) :
    refTerm inp x w b = Cert.QuadSlot.G inp x w b := by
  funext n
  refine (congrArg (refTerm inp x w b) (eq_ix1 n)).trans ?_
  exact refTerm_apply inp x w b (n 0)

end Cert.ReferenceIdeal.RefIndex

end
-- ==== Proof.RefValue.lean ====
/-
  The idealized reference's run, its result named by the specification: every weakly fair execution terminates
  without a fault, the result buffer ends at `w[slot] · x + b[slot]` of the launch memory's argument arrays, index by
  index, and the arguments end as launched.
-/
import proofs.«149824_j24893630447776_1_alg».proof.Proof.RefRead
import proofs.«149824_j24893630447776_1_alg».proof.Proof.RefIndex

noncomputable section

namespace Cert.ReferenceIdeal.RefValue

open Cert.ReferenceIdeal Cert.ReferenceIdeal.Gen Idealize.ShloMosaic Idealize.ShloMosaic.TcCoe Idealize.SL.Sem

/-- The run with the result at the specification's function of the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29)
        = Cert.QuadSlot.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun r h c => ⟨(h c).1.trans (Cert.ReferenceIdeal.RefIndex.refTerm_eq _ _ _ _), (h c).2⟩)
    (run_term m ρ)

end Cert.ReferenceIdeal.RefValue

end
-- ==== Proof.lean ====
/-
  Two programs send each of 16,777,216 points of the plane to a position in two tables of 2^20 entries and return
  `w[position] · x + b[position]`. A point's position is found cell by cell: each coordinate is scaled by 1024, rounded
  down, clamped into [0, 1023] and read as an integer; the two cell numbers are packed as `cell₀ · 1024 + cell₁` and the
  word is reduced to twenty bits.

  The kernel program does this in two launches over a [131072, 128] layout of the points — the first computes the
  positions (scaling by the literal 1024, masking with `2^20 − 1`), the second the multiply-add — with the two table
  look-ups between them on the host (array indexing: a negative index wraps once, the gather clamps). The reference
  works on the flat arrays: it scales by `(p − 0) / 1 · 1024`, clamps between the integers 0 and 1023 read as floats,
  takes the remainder by 2^20 with the divisor's sign, and looks the tables up with a fill value outside the table.

  On the extended reals these are one function of the arguments, index by index (Proof/Spec.lean): subtracting zero
  and dividing by one change nothing, the integer bounds are the float literals, the signed remainder by 2^20 is the
  twenty-bit mask for every word, and a masked word is a valid table position, so neither the wrap, nor the clamp,
  nor the fill value is ever used. No finiteness of the inputs is needed for any of it. The kernel's side is
  Proof/KValue.lean (the run over @main's segments with the result buffer read back through both launches), the
  reference's Proof/RefValue.lean (the run of its operations, its outlined functions written out in place).
-/
import proofs.«149824_j24893630447776_1_alg».proof.Defs
import proofs.«149824_j24893630447776_1_alg».proof.Proof.Gen.Kernel
import proofs.«149824_j24893630447776_1_alg».proof.Proof.Gen.Kernel.Frame
import proofs.«149824_j24893630447776_1_alg».proof.Proof.Gen.KernelIdeal
import proofs.«149824_j24893630447776_1_alg».proof.Proof.Gen.KernelIdeal.Frame
import proofs.«149824_j24893630447776_1_alg».proof.Proof.Gen.ReferenceIdeal
import proofs.«149824_j24893630447776_1_alg».proof.Proof.Gen.Pre_finite_inputs
import proofs.«149824_j24893630447776_1_alg».proof.Proof.KValue
import proofs.«149824_j24893630447776_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run (Cert.ReferenceIdeal.defs (F := Ideal)) _ _).mono (fun _ h c => (h c).2) (Cert.ReferenceIdeal.RefValue.run m ρ)

/-- The idealization rewrote no operation of the kernel: nothing to state. -/
theorem preserves : Cert.preserves_Kernel_KernelIdeal := trivial

/-- On the extended reals both programs end with the result at `w[slot] · x + b[slot]` of their arguments, index by
    index; the arguments agree, so the results do. -/
theorem algebraic : Cert.algebraic_KernelIdeal_ReferenceIdeal := by
  intro m ρ m' ρ' _ hagree
  refine ⟨_, Cert.KernelIdeal.KValue.run m ρ, ?_⟩
  refine (θ_run (Cert.ReferenceIdeal.defs (F := Ideal)) _ _).mono (fun r h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
